-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x768 : Shape := ⟨2, ![65536, 768]⟩
abbrev S65536x64 : Shape := ⟨2, ![65536, 64]⟩
abbrev S256x768 : Shape := ⟨2, ![256, 768]⟩
abbrev S256 : Shape := ⟨1, ![256]⟩
abbrev S256x256 : Shape := ⟨2, ![256, 256]⟩
abbrev S256x512 : Shape := ⟨2, ![256, 512]⟩
abbrev S1537x256 : Shape := ⟨2, ![1537, 256]⟩
abbrev S1537 : Shape := ⟨1, ![1537]⟩
abbrev S768 : Shape := ⟨1, ![768]⟩
abbrev S1 : Shape := ⟨1, ![1]⟩
abbrev S_ : Shape := ⟨0, ![]⟩

class Facts : Prop where
  bcast_S_S65536x768 : S_.BroadcastsInDim S65536x768 (![] : Fin 0 → Fin S65536x768.rank)
  reducesTo_S65536x768_S_d0_1 : S65536x768.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_
  bcast_S_S1537x256 : S_.BroadcastsInDim S1537x256 (![] : Fin 0 → Fin S1537x256.rank)
  reducesTo_S1537x256_S_d0_1 : S1537x256.ReducesTo [0, 1] S_
  bcast_S_S1537 : S_.BroadcastsInDim S1537 (![] : Fin 0 → Fin S1537.rank)
  reducesTo_S1537_S_d0 : S1537.ReducesTo [0] S_
  bcast_S_S768 : S_.BroadcastsInDim S768 (![] : Fin 0 → Fin S768.rank)
  reducesTo_S768_S_d0 : S768.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S256 .f32) (main_arg8 : FVec F S1537x256 .f32) (main_arg9 : FVec F S1537 .f32) (main_arg10 : FVec F S768 .f32) (main_arg11 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1537x256 .f32 := Host.absf main_arg8
  let main_cst_14 : FVec F S_ .f32 := constant S_ .f32 0x7F800000#32
  let main_v40 : FVec F S1537x256 .f32 := broadcastInDim S1537x256 ![] bcast_S_S1537x256 main_cst_14
  let main_v41 : IVec S1537x256 1 := cmpf .olt main_v39 main_v40
  let main_c_15 : IVec S_ 1 := constantI S_ 1 1#1
  let main_v42 : IVec S_ 1 := (fun x v => Host.reduce IntOp.andi x v reducesTo_S1537x256_S_d0_1 h_S_) main_v41 main_c_15
  let main_v43 : IVec S_ 1 := andi main_v38 main_v42
  let main_v44 : FVec F S1537 .f32 := Host.absf main_arg9
  let main_cst_16 : FVec F S_ .f32 := constant S_ .f32 0x7F800000#32
  let main_v45 : FVec F S1537 .f32 := broadcastInDim S1537 ![] bcast_S_S1537 main_cst_16
  let main_v46 : IVec S1537 1 := cmpf .olt main_v44 main_v45
  let main_c_17 : IVec S_ 1 := constantI S_ 1 1#1
  let main_v47 : IVec S_ 1 := (fun x v => Host.reduce IntOp.andi x v reducesTo_S1537_S_d0 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_arg11 main_v48 main_v49 main_v50

def fn_part1 {F : FTy → Type} [FloatOps F] (main_arg4 : FVec F S256x256 .f32) (main_arg5 : FVec F S256 .f32) (main_arg6 : FVec F S256x512 .f32) (main_arg7 : FVec F S256 .f32) (main_arg8 : FVec F S1537x256 .f32) (main_arg9 : FVec F S1537 .f32) (main_arg10 : FVec F S768 .f32) (main_arg11 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x768 .f32) (main_arg1 : FVec F S65536x64 .f32) (main_arg2 : FVec F S256x768 .f32) (main_arg3 : FVec F S256 .f32) (main_arg4 : FVec F S256x256 .f32) (main_arg5 : FVec F S256 .f32) (main_arg6 : FVec F S256x512 .f32) (main_arg7 : FVec F S256 .f32) (main_arg8 : FVec F S1537x256 .f32) (main_arg9 : FVec F S1537 .f32) (main_arg10 : FVec F S768 .f32) (main_arg11 : FVec F S1 .f32) : IVec S_ 1 :=
  let main_v0 : FVec F S65536x768 .f32 := Host.absf main_arg0
  let main_cst : FVec F S_ .f32 := constant S_ .f32 0x7F800000#32
  let main_v1 : FVec F S65536x768 .f32 := broadcastInDim S65536x768 ![] bcast_S_S65536x768 main_cst
  let main_v2 : IVec S65536x768 1 := cmpf .olt main_v0 main_v1
  let main_c : IVec S_ 1 := constantI S_ 1 1#1
  let main_v3 : IVec S_ 1 := (fun x v => Host.reduce IntOp.andi x v reducesTo_S65536x768_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S256x768 .f32 := Host.absf main_arg2
  let main_cst_2 : FVec F S_ .f32 := constant S_ .f32 0x7F800000#32
  let main_v10 : FVec F S256x768 .f32 := broadcastInDim S256x768 ![] bcast_S_S256x768 main_cst_2
  let main_v11 : IVec S256x768 1 := cmpf .olt main_v9 main_v10
  let main_c_3 : IVec S_ 1 := constantI S_ 1 1#1
  let main_v12 : IVec S_ 1 := (fun x v => Host.reduce IntOp.andi x v reducesTo_S256x768_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S65536x768 : Shape := ⟨2, ![65536, 768]⟩
abbrev S65536x64 : Shape := ⟨2, ![65536, 64]⟩
abbrev S256x768 : Shape := ⟨2, ![256, 768]⟩
abbrev S256 : Shape := ⟨1, ![256]⟩
abbrev S256x256 : Shape := ⟨2, ![256, 256]⟩
abbrev S256x512 : Shape := ⟨2, ![256, 512]⟩
abbrev S1537x256 : Shape := ⟨2, ![1537, 256]⟩
abbrev S1537 : Shape := ⟨1, ![1537]⟩
abbrev S768 : Shape := ⟨1, ![768]⟩
abbrev S1 : Shape := ⟨1, ![1]⟩
abbrev S768x256 : Shape := ⟨2, ![768, 256]⟩
abbrev S1x256 : Shape := ⟨2, ![1, 256]⟩
abbrev S64x65536 : Shape := ⟨2, ![64, 65536]⟩
abbrev S2x64x256 : Shape := ⟨3, ![2, 64, 256]⟩
abbrev S2x1x256 : Shape := ⟨3, ![2, 1, 256]⟩
abbrev S2x64x1 : Shape := ⟨3, ![2, 64, 1]⟩
abbrev S2048x768 : Shape := ⟨2, ![2048, 768]⟩
abbrev S64x2048 : Shape := ⟨2, ![64, 2048]⟩
abbrev S1x64x256 : Shape := ⟨3, ![1, 64, 256]⟩
abbrev S1x1x256 : Shape := ⟨3, ![1, 1, 256]⟩
abbrev S1x64x1 : Shape := ⟨3, ![1, 64, 1]⟩
abbrev S2048x256 : Shape := ⟨2, ![2048, 256]⟩
abbrev S64x256 : Shape := ⟨2, ![64, 256]⟩
abbrev S64 : Shape := ⟨1, ![64]⟩
abbrev S64x1 : Shape := ⟨2, ![64, 1]⟩
abbrev S_ : Shape := ⟨0, ![]⟩
abbrev S64x512 : Shape := ⟨2, ![64, 512]⟩
abbrev S512x256 : Shape := ⟨2, ![512, 256]⟩
abbrev S256x1537 : Shape := ⟨2, ![256, 1537]⟩
abbrev S64x1537 : Shape := ⟨2, ![64, 1537]⟩
abbrev S1x1537 : Shape := ⟨2, ![1, 1537]⟩
abbrev S64x768 : Shape := ⟨2, ![64, 768]⟩
abbrev S1x768 : Shape := ⟨2, ![1, 768]⟩

abbrev nBuf : Space → Nat
  | .hbm => 79
  | .vmem => 14
  | .smem => 0
  | _ => 0

abbrev bufTy : (tb : Table) → Fin (tcTables nBuf tb) → BufTy
  | .hbm, ⟨0, _⟩ => ⟨S65536x768, .f32⟩
  | .hbm, ⟨1, _⟩ => ⟨S65536x64, .f32⟩
  | .hbm, ⟨2, _⟩ => ⟨S256x768, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x512, .f32⟩
  | .hbm, ⟨7, _⟩ => ⟨S256, .f32⟩
  | .hbm, ⟨8, _⟩ => ⟨S1537x256, .f32⟩
  | .hbm, ⟨9, _⟩ => ⟨S1537, .f32⟩
  | .hbm, ⟨10, _⟩ => ⟨S768, .f32⟩
  | .hbm, ⟨11, _⟩ => ⟨S1, .f32⟩
  | .hbm, ⟨12, _⟩ => ⟨S768x256, .f32⟩
  | .hbm, ⟨13, _⟩ => ⟨S768x256, .bf16⟩
  | .hbm, ⟨14, _⟩ => ⟨S256x256, .f32⟩
  | .hbm, ⟨15, _⟩ => ⟨S256x256, .bf16⟩
  | .hbm, ⟨16, _⟩ => ⟨S1x256, .f32⟩
  | .hbm, ⟨17, _⟩ => ⟨S1x256, .f32⟩
  | .hbm, ⟨18, _⟩ => ⟨S64x65536, .f32⟩
  | .hbm, ⟨19, _⟩ => ⟨S2x64x256, .f32⟩
  | .hbm, ⟨20, _⟩ => ⟨S2x1x256, .f32⟩
  | .hbm, ⟨21, _⟩ => ⟨S2x64x1, .f32⟩
  | .hbm, ⟨22, _⟩ => ⟨S_, .f32⟩
  | .hbm, ⟨23, _⟩ => ⟨S64x256, .f32⟩
  | .hbm, ⟨24, _⟩ => ⟨S_, .f32⟩
  | .hbm, ⟨25, _⟩ => ⟨S1x256, .f32⟩
  | .hbm, ⟨26, _⟩ => ⟨S_, .f32⟩
  | .hbm, ⟨27, _⟩ => ⟨S64x1, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64x1, .f32⟩
  | .hbm, ⟨39, _⟩ => ⟨S64x256, .f32⟩
  | .hbm, ⟨40, _⟩ => ⟨S64x256, .f32⟩
  | .hbm, ⟨41, _⟩ => ⟨S64x256, .f32⟩
  | .hbm, ⟨42, _⟩ => ⟨S64x256, .f32⟩
  | .hbm, ⟨43, _⟩ => ⟨S64x1, .f32⟩
  | .hbm, ⟨44, _⟩ => ⟨S64x256, .f32⟩
  | .hbm, ⟨45, _⟩ => ⟨S64x256, .f32⟩
  | .hbm, ⟨46, _⟩ => ⟨S64x512, .f32⟩
  | .hbm, ⟨47, _⟩ => ⟨S512x256, .f32⟩
  | .hbm, ⟨48, _⟩ => ⟨S64x256, .f32⟩
  | .hbm, ⟨49, _⟩ => ⟨S1x256, .f32⟩
  | .hbm, ⟨50, _⟩ => ⟨S64x256, .f32⟩
  | .hbm, ⟨51, _⟩ => ⟨S64x256, .f32⟩
  | .hbm, ⟨52, _⟩ => ⟨S_, .f32⟩
  | .hbm, ⟨53, _⟩ => ⟨S64x256, .f32⟩
  | .hbm, ⟨54, _⟩ => ⟨S64x256, .f32⟩
  | .hbm, ⟨55, _⟩ => ⟨S256x1537, .f32⟩
  | .hbm, ⟨56, _⟩ => ⟨S64x1537, .f32⟩
  | .hbm, ⟨57, _⟩ => ⟨S1x1537, .f32⟩
  | .hbm, ⟨58, _⟩ => ⟨S64x1537, .f32⟩
  | .hbm, ⟨59, _⟩ => ⟨S64x1537, .f32⟩
  | .hbm, ⟨60, _⟩ => ⟨S64x768, .f32⟩
  | .hbm, ⟨61, _⟩ => ⟨S64x1, .f32⟩
  | .hbm, ⟨62, _⟩ => ⟨S64, .f32⟩
  | .hbm, ⟨63, _⟩ => ⟨S64x768, .f32⟩
  | .hbm, ⟨64, _⟩ => ⟨S64x768, .f32⟩
  | .hbm, ⟨65, _⟩ => ⟨S64x768, .f32⟩
  | .hbm, ⟨66, _⟩ => ⟨S_, .f32⟩
  | .hbm, ⟨67, _⟩ => ⟨S64x768, .f32⟩
  | .hbm, ⟨68, _⟩ => ⟨S64x768, .f32⟩
  | .hbm, ⟨69, _⟩ => ⟨S_, .f32⟩
  | .hbm, ⟨70, _⟩ => ⟨S64x768, .f32⟩
  | .hbm, ⟨71, _⟩ => ⟨S64x768, .f32⟩
  | .hbm, ⟨72, _⟩ => ⟨S1x768, .f32⟩
  | .hbm, ⟨73, _⟩ => ⟨S64x768, .f32⟩
  | .hbm, ⟨74, _⟩ => ⟨S64x768, .f32⟩
  | .hbm, ⟨75, _⟩ => ⟨S64x768, .f32⟩
  | .hbm, ⟨76, _⟩ => ⟨S_, .f32⟩
  | .hbm, ⟨77, _⟩ => ⟨S64, .f32⟩
  | .hbm, ⟨78, _⟩ => ⟨S64, .f32⟩
  | .local _ .vmem, ⟨0, _⟩ => ⟨S2048x768, .f32⟩
  | .local _ .vmem, ⟨1, _⟩ => ⟨S2048x768, .f32⟩
  | .local _ .vmem, ⟨2, _⟩ => ⟨S64x2048, .f32⟩
  | .local _ .vmem, ⟨3, _⟩ => ⟨S64x2048, .f32⟩
  | .local _ .vmem, ⟨4, _⟩ => ⟨S768x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S1x64x256, .f32⟩
  | .local _ .vmem, ⟨9, _⟩ => ⟨S1x64x256, .f32⟩
  | .local _ .vmem, ⟨10, _⟩ => ⟨S1x1x256, .f32⟩
  | .local _ .vmem, ⟨11, _⟩ => ⟨S1x1x256, .f32⟩
  | .local _ .vmem, ⟨12, _⟩ => ⟨S1x64x1, .f32⟩
  | .local _ .vmem, ⟨13, _⟩ => ⟨S1x64x1, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_cst : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call0_cst : Ref sig .tc := ⟨.hbm, 52, rfl⟩
abbrev main_call0_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_5 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  transposes_S256x768_S768x256_1_0 : S256x768.Transposes [1, 0] S768x256
  bitsLt_bf16_f32 : FTy.bits .bf16 < FTy.bits .f32
  transposes_S256x256_S256x256_1_0 : S256x256.Transposes [1, 0] S256x256
  shapeCasts_S256_S1x256 : S256.ShapeCasts S1x256
  transposes_S65536x64_S64x65536_1_0 : S65536x64.Transposes [1, 0] S64x65536
  inb_S1x64x256_S1x64x256_0_0_0 : ∀ a, (![0, 0, 0] : Fin 3 → Nat) a + S1x64x256.size a ≤ S1x64x256.size a
  h_S1x64x256 : 0 < S1x64x256.numel
  inb_S1x1x256_S1x1x256_0_0_0 : ∀ a, (![0, 0, 0] : Fin 3 → Nat) a + S1x1x256.size a ≤ S1x1x256.size a
  h_S1x1x256 : 0 < S1x1x256.numel
  inb_S1x64x1_S1x64x1_0_0_0 : ∀ a, (![0, 0, 0] : Fin 3 → Nat) a + S1x64x1.size a ≤ S1x64x1.size a
  h_S1x64x1 : 0 < S1x64x1.numel
  inb_S2048x768_S2048x768_0_0 : ∀ a, (![0, 0] : Fin 2 → Nat) a + S2048x768.size a ≤ S2048x768.size a
  h_S2048x768 : 0 < S2048x768.numel
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S2048x256 : S1x256.Broadcasts S2048x256
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  reduces_S2048x256_S256 : S2048x256.Reduces [0] S256
  reduces_S64x2048_S64 : S64x2048.Reduces [1] S64
  shapeCasts_S64_S64x1 : S64.ShapeCasts S64x1
  shapeCasts_S1x64x256_S1x64x256 : S1x64x256.ShapeCasts S1x64x256
  shapeCasts_S64x256_S1x64x256 : S64x256.ShapeCasts S1x64x256
  shapeCasts_S1x1x256_S1x1x256 : S1x1x256.ShapeCasts S1x1x256
  shapeCasts_S1x256_S1x1x256 : S1x256.ShapeCasts S1x1x256
  shapeCasts_S1x64x1_S1x64x1 : S1x64x1.ShapeCasts S1x64x1
  shapeCasts_S64x1_S1x64x1 : S64x1.ShapeCasts S1x64x1
  reducesTo_S2x64x256_S64x256_d0 : S2x64x256.ReducesTo [0] S64x256
  h_S_ : 0 < S_.numel
  reducesTo_S2x1x256_S1x256_d0 : S2x1x256.ReducesTo [0] S1x256
  reducesTo_S2x64x1_S64x1_d0 : S2x64x1.ReducesTo [0] S64x1
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S1x256_S64x256_0_1 : S1x256.BroadcastsInDim S64x256 (![0, 1] : Fin 2 → Fin S64x256.rank)
  concatenates_S64x256_S64x256_S64x512_d1 : Shape.Concatenates [S64x256, S64x256] S64x512 1
  transposes_S256x512_S512x256_1_0 : S256x512.Transposes [1, 0] S512x256
  bcast_S256_S1x256_1 : S256.BroadcastsInDim S1x256 (![1] : Fin 1 → Fin S1x256.rank)
  bcast_S_S64x256 : S_.BroadcastsInDim S64x256 (![] : Fin 0 → Fin S64x256.rank)
  transposes_S1537x256_S256x1537_1_0 : S1537x256.Transposes [1, 0] S256x1537
  bcast_S1537_S1x1537_1 : S1537.BroadcastsInDim S1x1537 (![1] : Fin 1 → Fin S1x1537.rank)
  bcast_S1x1537_S64x1537_0_1 : S1x1537.BroadcastsInDim S64x1537 (![0, 1] : Fin 2 → Fin S64x1537.rank)
  slices_S64x1537_S64x768_0_0 : S64x1537.Slices ![0, 0] S64x768
  slices_S64x1537_S64x1_0_768 : S64x1537.Slices ![0, 768] S64x1
  slices_S64x1537_S64x768_0_769 : S64x1537.Slices ![0, 769] S64x768
  bcast_S_S64x768 : S_.BroadcastsInDim S64x768 (![] : Fin 0 → Fin S64x768.rank)
  bcast_S768_S1x768_1 : S768.BroadcastsInDim S1x768 (![1] : Fin 1 → Fin S1x768.rank)
  bcast_S1x768_S64x768_0_1 : S1x768.BroadcastsInDim S64x768 (![0, 1] : Fin 2 → Fin S64x768.rank)
  shapeCasts_S1_S_ : S1.ShapeCasts S_
  dot_S2048x768_S768x256_S2048x256_1_0_0_1_n_n_wf : DotDims.WF S2048x768 S768x256 S2048x256 [1] [0] [0] [1] [] []
  dot_S2048x256_S256x256_S2048x256_1_0_0_1_n_n_wf : DotDims.WF S2048x256 S256x256 S2048x256 [1] [0] [0] [1] [] []
  dot_S64x2048_S2048x256_S64x256_1_0_0_1_n_n_wf : DotDims.WF S64x2048 S2048x256 S64x256 [1] [0] [0] [1] [] []
  dot_S64x512_S512x256_S64x256_1_0_0_1_n_n_wf : DotDims.WF S64x512 S512x256 S64x256 [1] [0] [0] [1] [] []
  dot_S64x256_S256x1537_S64x1537_1_0_0_1_n_n_wf : DotDims.WF S64x256 S256x1537 S64x1537 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S65536x768.size a
  hwx0_0 : ∀ i : grid0.Coords, EltTy.bits .f32 = 32 ∨ (Rect.block (s := S65536x768) S2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x65536.size a
  hwx0_1 : ∀ i : grid0.Coords, EltTy.bits .f32 = 32 ∨ (Rect.block (s := S64x65536) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x256.size a ≤ S768x256.size a
  hwx0_2 : ∀ i : grid0.Coords, EltTy.bits .bf16 = 32 ∨ (Rect.block (s := S768x256) S768x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x256.size a ≤ S2x64x256.size a
  hwx0_6 : ∀ i : grid0.Coords, EltTy.bits .f32 = 32 ∨ (Rect.block (s := S2x64x256) S1x64x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S2x1x256.size a
  hwx0_7 : ∀ i : grid0.Coords, EltTy.bits .f32 = 32 ∨ (Rect.block (s := S2x1x256) S1x1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x1.size a ≤ S2x64x1.size a
  hwx0_8 : ∀ i : grid0.Coords, EltTy.bits .f32 = 32 ∨ (Rect.block (s := S2x64x1) S1x64x1.size (cc0_transform_8 i) (hinb0_8 i)).WholeWords (EltTy.packing .f32)

variable [Facts₀]

def dot_S2048x768_S768x256_S2048x256_1_0_0_1_n_n : DotDims S2048x768 S768x256 S2048x256 where
  lhsContracting := [1]
  rhsContracting := [0]
  lhsNonContracting := [0]
  rhsNonContracting := [1]
  lhsBatch := []
  rhsBatch := []
  wf := dot_S2048x768_S768x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S64x2048_S2048x256_S64x256_1_0_0_1_n_n : DotDims S64x2048 S2048x256 S64x256 where
  lhsContracting := [1]
  rhsContracting := [0]
  lhsNonContracting := [0]
  rhsNonContracting := [1]
  lhsBatch := []
  rhsBatch := []
  wf := dot_S64x2048_S2048x256_S64x256_1_0_0_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x1537_S64x1537_1_0_0_1_n_n : DotDims S64x256 S256x1537 S64x1537 where
  lhsContracting := [1]
  rhsContracting := [0]
  lhsNonContracting := [0]
  rhsNonContracting := [1]
  lhsBatch := []
  rhsBatch := []
  wf := dot_S64x256_S256x1537_S64x1537_1_0_0_1_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S1x64x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S1x1x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_2) S1x64x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x768 : Shape := ⟨2, ![65536, 768]⟩
abbrev S65536x64 : Shape := ⟨2, ![65536, 64]⟩
abbrev S256x768 : Shape := ⟨2, ![256, 768]⟩
abbrev S256 : Shape := ⟨1, ![256]⟩
abbrev S256x256 : Shape := ⟨2, ![256, 256]⟩
abbrev S256x512 : Shape := ⟨2, ![256, 512]⟩
abbrev S1537x256 : Shape := ⟨2, ![1537, 256]⟩
abbrev S1537 : Shape := ⟨1, ![1537]⟩
abbrev S768 : Shape := ⟨1, ![768]⟩
abbrev S1 : Shape := ⟨1, ![1]⟩
abbrev S768x256 : Shape := ⟨2, ![768, 256]⟩
abbrev S65536x256 : Shape := ⟨2, ![65536, 256]⟩
abbrev S1x256 : Shape := ⟨2, ![1, 256]⟩
abbrev S_ : Shape := ⟨0, ![]⟩
abbrev S64 : Shape := ⟨1, ![64]⟩
abbrev S64x65536 : Shape := ⟨2, ![64, 65536]⟩
abbrev S64x256 : Shape := ⟨2, ![64, 256]⟩
abbrev S64x1 : Shape := ⟨2, ![64, 1]⟩
abbrev S64x512 : Shape := ⟨2, ![64, 512]⟩
abbrev S512x256 : Shape := ⟨2, ![512, 256]⟩
abbrev S256x1537 : Shape := ⟨2, ![256, 1537]⟩
abbrev S64x1537 : Shape := ⟨2, ![64, 1537]⟩
abbrev S1x1537 : Shape := ⟨2, ![1, 1537]⟩
abbrev S64x768 : Shape := ⟨2, ![64, 768]⟩
abbrev S1x768 : Shape := ⟨2, ![1, 768]⟩

abbrev nBuf : Space → Nat
  | .hbm => 84
  | .vmem => 0
  | .smem => 0
  | _ => 0

abbrev bufTy : (tb : Table) → Fin (tcTables nBuf tb) → BufTy
  | .hbm, ⟨0, _⟩ => ⟨S65536x768, .f32⟩
  | .hbm, ⟨1, _⟩ => ⟨S65536x64, .f32⟩
  | .hbm, ⟨2, _⟩ => ⟨S256x768, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x512, .f32⟩
  | .hbm, ⟨7, _⟩ => ⟨S256, .f32⟩
  | .hbm, ⟨8, _⟩ => ⟨S1537x256, .f32⟩
  | .hbm, ⟨9, _⟩ => ⟨S1537, .f32⟩
  | .hbm, ⟨10, _⟩ => ⟨S768, .f32⟩
  | .hbm, ⟨11, _⟩ => ⟨S1, .f32⟩
  | .hbm, ⟨12, _⟩ => ⟨S768x256, .f32⟩
  | .hbm, ⟨13, _⟩ => ⟨S65536x256, .f32⟩
  | .hbm, ⟨14, _⟩ => ⟨S1x256, .f32⟩
  | .hbm, ⟨15, _⟩ => ⟨S65536x256, .f32⟩
  | .hbm, ⟨16, _⟩ => ⟨S65536x256, .f32⟩
  | .hbm, ⟨17, _⟩ => ⟨S_, .f32⟩
  | .hbm, ⟨18, _⟩ => ⟨S65536x256, .f32⟩
  | .hbm, ⟨19, _⟩ => ⟨S65536x256, .f32⟩
  | .hbm, ⟨20, _⟩ => ⟨S256x256, .f32⟩
  | .hbm, ⟨21, _⟩ => ⟨S65536x256, .f32⟩
  | .hbm, ⟨22, _⟩ => ⟨S1x256, .f32⟩
  | .hbm, ⟨23, _⟩ => ⟨S65536x256, .f32⟩
  | .hbm, ⟨24, _⟩ => ⟨S65536x256, .f32⟩
  | .hbm, ⟨25, _⟩ => ⟨S_, .f32⟩
  | .hbm, ⟨26, _⟩ => ⟨S65536x256, .f32⟩
  | .hbm, ⟨27, _⟩ => ⟨S65536x256, .f32⟩
  | .hbm, ⟨28, _⟩ => ⟨S_, .f32⟩
  | .hbm, ⟨29, _⟩ => ⟨S65536x64, .f32⟩
  | .hbm, ⟨30, _⟩ => ⟨S65536x64, .f32⟩
  | .hbm, ⟨31, _⟩ => ⟨S_, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64x65536, .f32⟩
  | .hbm, ⟨42, _⟩ => ⟨S64x256, .f32⟩
  | .hbm, ⟨43, _⟩ => ⟨S64x1, .f32⟩
  | .hbm, ⟨44, _⟩ => ⟨S64x256, .f32⟩
  | .hbm, ⟨45, _⟩ => ⟨S64x256, .f32⟩
  | .hbm, ⟨46, _⟩ => ⟨S64x65536, .f32⟩
  | .hbm, ⟨47, _⟩ => ⟨S64x256, .f32⟩
  | .hbm, ⟨48, _⟩ => ⟨S64x1, .f32⟩
  | .hbm, ⟨49, _⟩ => ⟨S64x256, .f32⟩
  | .hbm, ⟨50, _⟩ => ⟨S64x256, .f32⟩
  | .hbm, ⟨51, _⟩ => ⟨S64x512, .f32⟩
  | .hbm, ⟨52, _⟩ => ⟨S512x256, .f32⟩
  | .hbm, ⟨53, _⟩ => ⟨S64x256, .f32⟩
  | .hbm, ⟨54, _⟩ => ⟨S1x256, .f32⟩
  | .hbm, ⟨55, _⟩ => ⟨S64x256, .f32⟩
  | .hbm, ⟨56, _⟩ => ⟨S64x256, .f32⟩
  | .hbm, ⟨57, _⟩ => ⟨S_, .f32⟩
  | .hbm, ⟨58, _⟩ => ⟨S64x256, .f32⟩
  | .hbm, ⟨59, _⟩ => ⟨S64x256, .f32⟩
  | .hbm, ⟨60, _⟩ => ⟨S256x1537, .f32⟩
  | .hbm, ⟨61, _⟩ => ⟨S64x1537, .f32⟩
  | .hbm, ⟨62, _⟩ => ⟨S1x1537, .f32⟩
  | .hbm, ⟨63, _⟩ => ⟨S64x1537, .f32⟩
  | .hbm, ⟨64, _⟩ => ⟨S64x1537, .f32⟩
  | .hbm, ⟨65, _⟩ => ⟨S64x768, .f32⟩
  | .hbm, ⟨66, _⟩ => ⟨S64x1, .f32⟩
  | .hbm, ⟨67, _⟩ => ⟨S64, .f32⟩
  | .hbm, ⟨68, _⟩ => ⟨S64x768, .f32⟩
  | .hbm, ⟨69, _⟩ => ⟨S64x768, .f32⟩
  | .hbm, ⟨70, _⟩ => ⟨S64x768, .f32⟩
  | .hbm, ⟨71, _⟩ => ⟨S_, .f32⟩
  | .hbm, ⟨72, _⟩ => ⟨S64x768, .f32⟩
  | .hbm, ⟨73, _⟩ => ⟨S64x768, .f32⟩
  | .hbm, ⟨74, _⟩ => ⟨S_, .f32⟩
  | .hbm, ⟨75, _⟩ => ⟨S64x768, .f32⟩
  | .hbm, ⟨76, _⟩ => ⟨S64x768, .f32⟩
  | .hbm, ⟨77, _⟩ => ⟨S1x768, .f32⟩
  | .hbm, ⟨78, _⟩ => ⟨S64x768, .f32⟩
  | .hbm, ⟨79, _⟩ => ⟨S64x768, .f32⟩
  | .hbm, ⟨80, _⟩ => ⟨S64x768, .f32⟩
  | .hbm, ⟨81, _⟩ => ⟨S_, .f32⟩
  | .hbm, ⟨82, _⟩ => ⟨S64, .f32⟩
  | .hbm, ⟨83, _⟩ => ⟨S64, .f32⟩
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call2_cst : Ref sig .tc := ⟨.hbm, 57, rfl⟩
abbrev main_call2_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_4 : Ref sig .tc := ⟨.hbm, 71, rfl⟩
abbrev main_v48 : Ref sig .tc := ⟨.hbm, 72, rfl⟩
abbrev main_v49 : Ref sig .tc := ⟨.hbm, 73, rfl⟩
abbrev main_cst_5 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  transposes_S256x768_S768x256_1_0 : S256x768.Transposes [1, 0] S768x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  transposes_S256x256_S256x256_1_0 : S256x256.Transposes [1, 0] S256x256
  bcast_S_S65536x64 : S_.BroadcastsInDim S65536x64 (![] : Fin 0 → Fin S65536x64.rank)
  reducesTo_S65536x64_S64_d0 : S65536x64.ReducesTo [0] S64
  h_S_ : 0 < S_.numel
  bcast_S_S64 : S_.BroadcastsInDim S64 (![] : Fin 0 → Fin S64.rank)
  transposes_S65536x64_S64x65536_1_0 : S65536x64.Transposes [1, 0] S64x65536
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  concatenates_S64x256_S64x256_S64x512_d1 : Shape.Concatenates [S64x256, S64x256] S64x512 1
  transposes_S256x512_S512x256_1_0 : S256x512.Transposes [1, 0] S512x256
  bcast_S1x256_S64x256_0_1 : S1x256.BroadcastsInDim S64x256 (![0, 1] : Fin 2 → Fin S64x256.rank)
  bcast_S_S64x256 : S_.BroadcastsInDim S64x256 (![] : Fin 0 → Fin S64x256.rank)
  transposes_S1537x256_S256x1537_1_0 : S1537x256.Transposes [1, 0] S256x1537
  bcast_S1537_S1x1537_1 : S1537.BroadcastsInDim S1x1537 (![1] : Fin 1 → Fin S1x1537.rank)
  bcast_S1x1537_S64x1537_0_1 : S1x1537.BroadcastsInDim S64x1537 (![0, 1] : Fin 2 → Fin S64x1537.rank)
  slices_S64x1537_S64x768_0_0 : S64x1537.Slices ![0, 0] S64x768
  slices_S64x1537_S64x1_0_768 : S64x1537.Slices ![0, 768] S64x1
  shapeCasts_S64x1_S64 : S64x1.ShapeCasts S64
  slices_S64x1537_S64x768_0_769 : S64x1537.Slices ![0, 769] S64x768
  bcast_S_S64x768 : S_.BroadcastsInDim S64x768 (![] : Fin 0 → Fin S64x768.rank)
  bcast_S768_S1x768_1 : S768.BroadcastsInDim S1x768 (![1] : Fin 1 → Fin S1x768.rank)
  bcast_S1x768_S64x768_0_1 : S1x768.BroadcastsInDim S64x768 (![0, 1] : Fin 2 → Fin S64x768.rank)
  shapeCasts_S1_S_ : S1.ShapeCasts S_
  dot_S65536x768_S768x256_S65536x256_1_0_0_1_n_n_wf : DotDims.WF S65536x768 S768x256 S65536x256 [1] [0] [0] [1] [] []
  dot_S65536x256_S256x256_S65536x256_1_0_0_1_n_n_wf : DotDims.WF S65536x256 S256x256 S65536x256 [1] [0] [0] [1] [] []
  dot_S64x65536_S65536x256_S64x256_1_0_0_1_n_n_wf : DotDims.WF S64x65536 S65536x256 S64x256 [1] [0] [0] [1] [] []
  dot_S64x512_S512x256_S64x256_1_0_0_1_n_n_wf : DotDims.WF S64x512 S512x256 S64x256 [1] [0] [0] [1] [] []
  dot_S64x256_S256x1537_S64x1537_1_0_0_1_n_n_wf : DotDims.WF S64x256 S256x1537 S64x1537 [1] [0] [0] [1] [] []

variable [Facts₀]

def dot_S65536x768_S768x256_S65536x256_1_0_0_1_n_n : DotDims S65536x768 S768x256 S65536x256 where
  lhsContracting := [1]
  rhsContracting := [0]
  lhsNonContracting := [0]
  rhsNonContracting := [1]
  lhsBatch := []
  rhsBatch := []
  wf := dot_S65536x768_S768x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S64x65536_S65536x256_S64x256_1_0_0_1_n_n : DotDims S64x65536 S65536x256 S64x256 where
  lhsContracting := [1]
  rhsContracting := [0]
  lhsNonContracting := [0]
  rhsNonContracting := [1]
  lhsBatch := []
  rhsBatch := []
  wf := dot_S64x65536_S65536x256_S64x256_1_0_0_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x1537_S64x1537_1_0_0_1_n_n : DotDims S64x256 S256x1537 S64x1537 where
  lhsContracting := [1]
  rhsContracting := [0]
  lhsNonContracting := [0]
  rhsNonContracting := [1]
  lhsBatch := []
  rhsBatch := []
  wf := dot_S64x256_S256x1537_S64x1537_1_0_0_1_n_n_wf

class Facts : Prop extends Facts₀ where

variable [Facts]
-- ==== Proof.Pieces.lean ====
/-
  What one run of the kernel body leaves in each of its three accumulators, as a value.

  The body computes, from the row tile `x0` of X, the column tile `x1` of the transposed weights and the four
  resident parameter blocks, three increments (the weighted pool of the tile's features, their column sums, the row
  sums of the weights) and adds each to its accumulator.  At the first tile of a core's half the accumulator is first
  set to zero, so the body leaves `0 + increment`; at every other tile it leaves `previous + increment`.
-/
import proofs.«173076_j45148696215988_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pool

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile: accumulator 0 ends at the previous contents plus the tile's increment. -/
theorem out_B_6 (c : Dev nD) (i : grid0.Coords) (arg2 : Memref sig .tc .vmem S2048x768 .f32) (harg2 : arg2.IsWhole) (arg3 : Memref sig .tc .vmem S64x2048 .f32) (harg3 : arg3.IsWhole) (arg4 : Memref sig .tc .vmem S768x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x64x256 .f32) (harg8 : arg8.IsWhole) (arg9 : Memref sig .tc .vmem S1x1x256 .f32) (harg9 : arg9.IsWhole) (arg10 : Memref sig .tc .vmem S1x64x1 .f32) (harg10 : arg10.IsWhole) (hc0 : ¬cond0_0 i)
    (x0 : Vec F S2048x768 .f32) (x1 : Vec F S64x2048 .f32) (x2 : Vec F S768x256 .bf16) (x3 : Vec F S1x256 .f32) (x4 : Vec F S256x256 .bf16) (x5 : Vec F S1x256 .f32) (xo6 : Vec F S1x64x256 .f32) (xo7 : Vec F S1x1x256 .f32) (xo8 : Vec F S1x64x1 .f32) :
    out0_B_6 c i arg2 harg2 arg3 harg3 arg4 harg4 arg5 harg5 arg6 harg6 arg7 harg7 arg8 harg8 arg9 harg9 arg10 harg10 hc0 x0 x1 x2 x3 x4 x5 xo6 xo7 xo8 = k0_pay1 (k0_pay9 x0 x2 x3 x4 x5 x1) xo6 := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 x5 xo6 xo7 xo8)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread,
    View.ld_unit_zero (S := S2048x768) hz2, View.ld_unit_zero (S := S64x2048) hz2, View.ld_unit_zero (S := S768x256) hz2, View.ld_unit_zero (S := S1x256) hz2, View.ld_unit_zero (S := S256x256) hz2,
    View.ld_unit_zero (S := S1x64x256) hz3, View.ld_unit_zero (S := S1x1x256) hz3, View.ld_unit_zero (S := S1x64x1) hz3]

/-- A later tile: accumulator 1 ends at the previous contents plus the tile's increment. -/
theorem out_B_7 (c : Dev nD) (i : grid0.Coords) (arg2 : Memref sig .tc .vmem S2048x768 .f32) (harg2 : arg2.IsWhole) (arg3 : Memref sig .tc .vmem S64x2048 .f32) (harg3 : arg3.IsWhole) (arg4 : Memref sig .tc .vmem S768x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x64x256 .f32) (harg8 : arg8.IsWhole) (arg9 : Memref sig .tc .vmem S1x1x256 .f32) (harg9 : arg9.IsWhole) (arg10 : Memref sig .tc .vmem S1x64x1 .f32) (harg10 : arg10.IsWhole) (hc0 : ¬cond0_0 i)
    (x0 : Vec F S2048x768 .f32) (x1 : Vec F S64x2048 .f32) (x2 : Vec F S768x256 .bf16) (x3 : Vec F S1x256 .f32) (x4 : Vec F S256x256 .bf16) (x5 : Vec F S1x256 .f32) (xo6 : Vec F S1x64x256 .f32) (xo7 : Vec F S1x1x256 .f32) (xo8 : Vec F S1x64x1 .f32) :
    out0_B_7 c i arg2 harg2 arg3 harg3 arg4 harg4 arg5 harg5 arg6 harg6 arg7 harg7 arg8 harg8 arg9 harg9 arg10 harg10 hc0 x0 x1 x2 x3 x4 x5 xo6 xo7 xo8 = k0_pay2 (k0_pay10 x0 x2 x3 x4 x5) xo7 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 xo6 xo7 xo8)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread,
    View.ld_unit_zero (S := S2048x768) hz2, View.ld_unit_zero (S := S64x2048) hz2, View.ld_unit_zero (S := S768x256) hz2, View.ld_unit_zero (S := S1x256) hz2, View.ld_unit_zero (S := S256x256) hz2,
    View.ld_unit_zero (S := S1x64x256) hz3, View.ld_unit_zero (S := S1x1x256) hz3, View.ld_unit_zero (S := S1x64x1) hz3]

/-- A later tile: accumulator 2 ends at the previous contents plus the tile's increment. -/
theorem out_B_8 (c : Dev nD) (i : grid0.Coords) (arg2 : Memref sig .tc .vmem S2048x768 .f32) (harg2 : arg2.IsWhole) (arg3 : Memref sig .tc .vmem S64x2048 .f32) (harg3 : arg3.IsWhole) (arg4 : Memref sig .tc .vmem S768x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x64x256 .f32) (harg8 : arg8.IsWhole) (arg9 : Memref sig .tc .vmem S1x1x256 .f32) (harg9 : arg9.IsWhole) (arg10 : Memref sig .tc .vmem S1x64x1 .f32) (harg10 : arg10.IsWhole) (hc0 : ¬cond0_0 i)
    (x0 : Vec F S2048x768 .f32) (x1 : Vec F S64x2048 .f32) (x2 : Vec F S768x256 .bf16) (x3 : Vec F S1x256 .f32) (x4 : Vec F S256x256 .bf16) (x5 : Vec F S1x256 .f32) (xo6 : Vec F S1x64x256 .f32) (xo7 : Vec F S1x1x256 .f32) (xo8 : Vec F S1x64x1 .f32) :
    out0_B_8 c i arg2 harg2 arg3 harg3 arg4 harg4 arg5 harg5 arg6 harg6 arg7 harg7 arg8 harg8 arg9 harg9 arg10 harg10 hc0 x0 x1 x2 x3 x4 x5 xo6 xo7 xo8 = k0_pay3 (k0_pay11 x1) xo8 := by
  unfold out0_B_8
  rw [View.read_writes_eq_canon _ _ _ (cover0_B_8 c i arg2 harg2 arg3 harg3 arg4 harg4 arg5 harg5 arg6 harg6 arg7 harg7 arg8 harg8 arg9 harg9 arg10 harg10 hc0 x0 x1 x2 x3 x4 x5 xo6 xo7 xo8)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread,
    View.ld_unit_zero (S := S2048x768) hz2, View.ld_unit_zero (S := S64x2048) hz2, View.ld_unit_zero (S := S768x256) hz2, View.ld_unit_zero (S := S1x256) hz2, View.ld_unit_zero (S := S256x256) hz2,
    View.ld_unit_zero (S := S1x64x256) hz3, View.ld_unit_zero (S := S1x1x256) hz3, View.ld_unit_zero (S := S1x64x1) hz3]

/-- The first tile of a half: accumulator 0 is reset, so it ends at zero plus the tile's increment. -/
theorem out_A_6 (c : Dev nD) (i : grid0.Coords) (arg2 : Memref sig .tc .vmem S2048x768 .f32) (harg2 : arg2.IsWhole) (arg3 : Memref sig .tc .vmem S64x2048 .f32) (harg3 : arg3.IsWhole) (arg4 : Memref sig .tc .vmem S768x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x64x256 .f32) (harg8 : arg8.IsWhole) (arg9 : Memref sig .tc .vmem S1x1x256 .f32) (harg9 : arg9.IsWhole) (arg10 : Memref sig .tc .vmem S1x64x1 .f32) (harg10 : arg10.IsWhole) (hc0 : cond0_0 i)
    (x0 : Vec F S2048x768 .f32) (x1 : Vec F S64x2048 .f32) (x2 : Vec F S768x256 .bf16) (x3 : Vec F S1x256 .f32) (x4 : Vec F S256x256 .bf16) (x5 : Vec F S1x256 .f32) :
    out0_A_6 c i arg2 harg2 arg3 harg3 arg4 harg4 arg5 harg5 arg6 harg6 arg7 harg7 arg8 harg8 arg9 harg9 arg10 harg10 hc0 x0 x1 x2 x3 x4 x5 = k0_pay1 (k0_pay9 x0 x2 x3 x4 x5 x1) (k0_pay4 (F := F)) := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_cons_unit_zero (S := S1x64x256) hz3, View.readCov_unit_zero (S := S1x64x256) _ hz3]
  simp only [View.readAt_eq_ld, harg2.read_unread, harg3.read_unread, harg4.read_unread, harg5.read_unread, harg6.read_unread, harg7.read_unread, harg8.read_unread, harg9.read_unread, harg10.read_unread,
    View.ld_unit_zero (S := S2048x768) hz2, View.ld_unit_zero (S := S64x2048) hz2, View.ld_unit_zero (S := S768x256) hz2, View.ld_unit_zero (S := S1x256) hz2, View.ld_unit_zero (S := S256x256) hz2,
    View.ld_unit_zero (S := S1x64x256) hz3, View.ld_unit_zero (S := S1x1x256) hz3, View.ld_unit_zero (S := S1x64x1) hz3]

/-- The first tile of a half: accumulator 1 is reset, so it ends at zero plus the tile's increment. -/
theorem out_A_7 (c : Dev nD) (i : grid0.Coords) (arg2 : Memref sig .tc .vmem S2048x768 .f32) (harg2 : arg2.IsWhole) (arg3 : Memref sig .tc .vmem S64x2048 .f32) (harg3 : arg3.IsWhole) (arg4 : Memref sig .tc .vmem S768x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x64x256 .f32) (harg8 : arg8.IsWhole) (arg9 : Memref sig .tc .vmem S1x1x256 .f32) (harg9 : arg9.IsWhole) (arg10 : Memref sig .tc .vmem S1x64x1 .f32) (harg10 : arg10.IsWhole) (hc0 : cond0_0 i)
    (x0 : Vec F S2048x768 .f32) (x1 : Vec F S64x2048 .f32) (x2 : Vec F S768x256 .bf16) (x3 : Vec F S1x256 .f32) (x4 : Vec F S256x256 .bf16) (x5 : Vec F S1x256 .f32) :
    out0_A_7 c i arg2 harg2 arg3 harg3 arg4 harg4 arg5 harg5 arg6 harg6 arg7 harg7 arg8 harg8 arg9 harg9 arg10 harg10 hc0 x0 x1 x2 x3 x4 x5 = k0_pay2 (k0_pay10 x0 x2 x3 x4 x5) (k0_pay5 (F := F)) := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_cons_unit_zero (S := S1x1x256) hz3, View.readCov_unit_zero (S := S1x1x256) _ hz3]
  simp only [View.readAt_eq_ld, harg2.read_unread, harg3.read_unread, harg4.read_unread, harg5.read_unread, harg6.read_unread, harg7.read_unread, harg8.read_unread, harg9.read_unread, harg10.read_unread,
    View.ld_unit_zero (S := S2048x768) hz2, View.ld_unit_zero (S := S64x2048) hz2, View.ld_unit_zero (S := S768x256) hz2, View.ld_unit_zero (S := S1x256) hz2, View.ld_unit_zero (S := S256x256) hz2,
    View.ld_unit_zero (S := S1x64x256) hz3, View.ld_unit_zero (S := S1x1x256) hz3, View.ld_unit_zero (S := S1x64x1) hz3]

/-- The first tile of a half: accumulator 2 is reset, so it ends at zero plus the tile's increment. -/
theorem out_A_8 (c : Dev nD) (i : grid0.Coords) (arg2 : Memref sig .tc .vmem S2048x768 .f32) (harg2 : arg2.IsWhole) (arg3 : Memref sig .tc .vmem S64x2048 .f32) (harg3 : arg3.IsWhole) (arg4 : Memref sig .tc .vmem S768x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x64x256 .f32) (harg8 : arg8.IsWhole) (arg9 : Memref sig .tc .vmem S1x1x256 .f32) (harg9 : arg9.IsWhole) (arg10 : Memref sig .tc .vmem S1x64x1 .f32) (harg10 : arg10.IsWhole) (hc0 : cond0_0 i)
    (x0 : Vec F S2048x768 .f32) (x1 : Vec F S64x2048 .f32) (x2 : Vec F S768x256 .bf16) (x3 : Vec F S1x256 .f32) (x4 : Vec F S256x256 .bf16) (x5 : Vec F S1x256 .f32) :
    out0_A_8 c i arg2 harg2 arg3 harg3 arg4 harg4 arg5 harg5 arg6 harg6 arg7 harg7 arg8 harg8 arg9 harg9 arg10 harg10 hc0 x0 x1 x2 x3 x4 x5 = k0_pay3 (k0_pay11 x1) (k0_pay6 (F := F)) := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_cons_unit_zero (S := S1x64x1) hz3, View.readCov_unit_zero (S := S1x64x1) _ hz3]
  simp only [View.readAt_eq_ld, harg2.read_unread, harg3.read_unread, harg4.read_unread, harg5.read_unread, harg6.read_unread, harg7.read_unread, harg8.read_unread, harg9.read_unread, harg10.read_unread,
    View.ld_unit_zero (S := S2048x768) hz2, View.ld_unit_zero (S := S64x2048) hz2, View.ld_unit_zero (S := S768x256) hz2, View.ld_unit_zero (S := S1x256) hz2, View.ld_unit_zero (S := S256x256) hz2,
    View.ld_unit_zero (S := S1x64x256) hz3, View.ld_unit_zero (S := S1x1x256) hz3, View.ld_unit_zero (S := S1x64x1) hz3]

end Cert.KernelIdeal.Pool

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.Body.lean ====
/-
  The body's arithmetic read at an index, at the ideal instance.

  On a tile of 2048 rows the body forms the hidden features
  `t2 r d = max (Σ_k max (Σ_e x0[r,e]·x2[e,k] + x3[0,k]) 0 · x4[k,d] + x5[0,d]) 0`
  (the two rounding steps to a shorter float format are the identity on extended reals, a matrix product into a zero
  accumulator is the plain sum over the contracted axis), and from them the three increments: the weighted pool
  `Σ_r x1[c,r]·t2 r d`, the column sums `Σ_r t2 r d` and the weights' row sums `Σ_r x1[c,r]`.
-/
import proofs.«173076_j45148696215988_2_alg».proof.Proof.Gen.KernelIdeal.Skeleton
import proofs.«173076_j45148696215988_2_alg».proof.Proof.LibMatProd
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx

namespace Cert.KernelIdeal.Pool

open Cert.KernelIdeal Cert.KernelIdeal.Gen

/-! ## The three matrix products as sums over the contracted axis -/

theorem d1_l0 (i : S2048x256.Idx) (q : dot_S2048x768_S768x256_S2048x256_1_0_0_1_n_n.contr.Idx) : (dot_S2048x768_S768x256_S2048x256_1_0_0_1_n_n.lhsIdx i q 0).val = (i 0).val := by
  unfold DotDims.lhsIdx
  rw [dif_neg (show ¬(0 : Fin S2048x768.rank) ∈ dot_S2048x768_S768x256_S2048x256_1_0_0_1_n_n.lhsBatch by decide), dif_pos (show (0 : Fin S2048x768.rank) ∈ dot_S2048x768_S768x256_S2048x256_1_0_0_1_n_n.lhsNonContracting by decide)]
  rfl
theorem d1_l1 (i : S2048x256.Idx) (q : dot_S2048x768_S768x256_S2048x256_1_0_0_1_n_n.contr.Idx) : (dot_S2048x768_S768x256_S2048x256_1_0_0_1_n_n.lhsIdx i q 1).val = (q ⟨0, by decide⟩).val :=
  dot_S2048x768_S768x256_S2048x256_1_0_0_1_n_n.lhsIdx_val_of_single rfl i q
theorem d1_r0 (i : S2048x256.Idx) (q : dot_S2048x768_S768x256_S2048x256_1_0_0_1_n_n.contr.Idx) : (dot_S2048x768_S768x256_S2048x256_1_0_0_1_n_n.rhsIdx i q 0).val = (q ⟨0, by decide⟩).val :=
  dot_S2048x768_S768x256_S2048x256_1_0_0_1_n_n.rhsIdx_val_of_single rfl i q
theorem d1_r1 (i : S2048x256.Idx) (q : dot_S2048x768_S768x256_S2048x256_1_0_0_1_n_n.contr.Idx) : (dot_S2048x768_S768x256_S2048x256_1_0_0_1_n_n.rhsIdx i q 1).val = (i 1).val := by
  unfold DotDims.rhsIdx
  rw [dif_neg (show ¬(1 : Fin S768x256.rank) ∈ dot_S2048x768_S768x256_S2048x256_1_0_0_1_n_n.rhsBatch by decide), dif_pos (show (1 : Fin S768x256.rank) ∈ dot_S2048x768_S768x256_S2048x256_1_0_0_1_n_n.rhsNonContracting by decide)]
  rfl

/-- Product 1 (2048×768 by 768×256) into the zero accumulator, at `(p, q)`: `Σ_k a[p,k]·b[k,q]`. -/
theorem mm1_apply {φ₁ φ₂ : FTy} (a : FVec Ideal S2048x768 φ₁) (b : FVec Ideal S768x256 φ₂) (p : Fin 2048) (q : Fin 256) :
    matmul dot_S2048x768_S768x256_S2048x256_1_0_0_1_n_n none a b (constant (F := Ideal) S2048x256 .f32 0x00000000#32) (ix2 p q) = ∑ k : Fin 768, a (ix2 p k) * b (ix2 k q) :=
  (Ideal.matmul_constant_zero_apply dot_S2048x768_S768x256_S2048x256_1_0_0_1_n_n none a b (ix2 p q)).trans
    (Cert.Gcn.Dense.sum_contr_eq_prod (M := 2048) (K := 768) (N := 256) dot_S2048x768_S768x256_S2048x256_1_0_0_1_n_n rfl rfl d1_l0 d1_l1 d1_r0 d1_r1 a b (ix2 p q))

theorem d2_l0 (i : S2048x256.Idx) (q : dot_S2048x256_S256x256_S2048x256_1_0_0_1_n_n.contr.Idx) : (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem d2_l1 (i : S2048x256.Idx) (q : dot_S2048x256_S256x256_S2048x256_1_0_0_1_n_n.contr.Idx) : (dot_S2048x256_S256x256_S2048x256_1_0_0_1_n_n.lhsIdx i q 1).val = (q ⟨0, by decide⟩).val :=
  dot_S2048x256_S256x256_S2048x256_1_0_0_1_n_n.lhsIdx_val_of_single rfl i q
theorem d2_r0 (i : S2048x256.Idx) (q : dot_S2048x256_S256x256_S2048x256_1_0_0_1_n_n.contr.Idx) : (dot_S2048x256_S256x256_S2048x256_1_0_0_1_n_n.rhsIdx i q 0).val = (q ⟨0, by decide⟩).val :=
  dot_S2048x256_S256x256_S2048x256_1_0_0_1_n_n.rhsIdx_val_of_single rfl i q
theorem d2_r1 (i : S2048x256.Idx) (q : dot_S2048x256_S256x256_S2048x256_1_0_0_1_n_n.contr.Idx) : (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- Product 2 (2048×256 by 256×256) into the zero accumulator, at `(p, q)`: `Σ_k a[p,k]·b[k,q]`. -/
theorem mm2_apply {φ₁ φ₂ : FTy} (a : FVec Ideal S2048x256 φ₁) (b : FVec Ideal S256x256 φ₂) (p : Fin 2048) (q : Fin 256) :
    matmul dot_S2048x256_S256x256_S2048x256_1_0_0_1_n_n none a b (constant (F := Ideal) S2048x256 .f32 0x00000000#32) (ix2 p q) = ∑ k : Fin 256, a (ix2 p k) * b (ix2 k q) :=
  (Ideal.matmul_constant_zero_apply dot_S2048x256_S256x256_S2048x256_1_0_0_1_n_n none a b (ix2 p q)).trans
    (Cert.Gcn.Dense.sum_contr_eq_prod (M := 2048) (K := 256) (N := 256) dot_S2048x256_S256x256_S2048x256_1_0_0_1_n_n rfl rfl d2_l0 d2_l1 d2_r0 d2_r1 a b (ix2 p q))

theorem d3_l0 (i : S64x256.Idx) (q : dot_S64x2048_S2048x256_S64x256_1_0_0_1_n_n.contr.Idx) : (dot_S64x2048_S2048x256_S64x256_1_0_0_1_n_n.lhsIdx i q 0).val = (i 0).val := by
  unfold DotDims.lhsIdx
  rw [dif_neg (show ¬(0 : Fin S64x2048.rank) ∈ dot_S64x2048_S2048x256_S64x256_1_0_0_1_n_n.lhsBatch by decide), dif_pos (show (0 : Fin S64x2048.rank) ∈ dot_S64x2048_S2048x256_S64x256_1_0_0_1_n_n.lhsNonContracting by decide)]
  rfl
theorem d3_l1 (i : S64x256.Idx) (q : dot_S64x2048_S2048x256_S64x256_1_0_0_1_n_n.contr.Idx) : (dot_S64x2048_S2048x256_S64x256_1_0_0_1_n_n.lhsIdx i q 1).val = (q ⟨0, by decide⟩).val :=
  dot_S64x2048_S2048x256_S64x256_1_0_0_1_n_n.lhsIdx_val_of_single rfl i q
theorem d3_r0 (i : S64x256.Idx) (q : dot_S64x2048_S2048x256_S64x256_1_0_0_1_n_n.contr.Idx) : (dot_S64x2048_S2048x256_S64x256_1_0_0_1_n_n.rhsIdx i q 0).val = (q ⟨0, by decide⟩).val :=
  dot_S64x2048_S2048x256_S64x256_1_0_0_1_n_n.rhsIdx_val_of_single rfl i q
theorem d3_r1 (i : S64x256.Idx) (q : dot_S64x2048_S2048x256_S64x256_1_0_0_1_n_n.contr.Idx) : (dot_S64x2048_S2048x256_S64x256_1_0_0_1_n_n.rhsIdx i q 1).val = (i 1).val := by
  unfold DotDims.rhsIdx
  rw [dif_neg (show ¬(1 : Fin S2048x256.rank) ∈ dot_S64x2048_S2048x256_S64x256_1_0_0_1_n_n.rhsBatch by decide), dif_pos (show (1 : Fin S2048x256.rank) ∈ dot_S64x2048_S2048x256_S64x256_1_0_0_1_n_n.rhsNonContracting by decide)]
  rfl

/-- Product 3 (64×2048 by 2048×256) into the zero accumulator, at `(p, q)`: `Σ_k a[p,k]·b[k,q]`. -/
theorem mm3_apply {φ₁ φ₂ : FTy} (a : FVec Ideal S64x2048 φ₁) (b : FVec Ideal S2048x256 φ₂) (p : Fin 64) (q : Fin 256) :
    matmul dot_S64x2048_S2048x256_S64x256_1_0_0_1_n_n none a b (constant (F := Ideal) S64x256 .f32 0x00000000#32) (ix2 p q) = ∑ k : Fin 2048, a (ix2 p k) * b (ix2 k q) :=
  (Ideal.matmul_constant_zero_apply dot_S64x2048_S2048x256_S64x256_1_0_0_1_n_n none a b (ix2 p q)).trans
    (Cert.Gcn.Dense.sum_contr_eq_prod (M := 64) (K := 2048) (N := 256) dot_S64x2048_S2048x256_S64x256_1_0_0_1_n_n rfl rfl d3_l0 d3_l1 d3_r0 d3_r1 a b (ix2 p q))

/-! ## The hidden features of a tile -/

/-- First layer on a tile. -/
def t1 (x0 : FVec Ideal S2048x768 .f32) (x2 : FVec Ideal S768x256 .bf16) (x3 : FVec Ideal S1x256 .f32) (r : Fin 2048) (k : Fin 256) : EReal :=
  max ((∑ e : Fin 768, x0 (ix2 r e) * x2 (ix2 e k)) + x3 (ix2 (0 : Fin 1) k)) 0

/-- Second layer on a tile. -/
def t2 (x0 : FVec Ideal S2048x768 .f32) (x2 : FVec Ideal S768x256 .bf16) (x3 : FVec Ideal S1x256 .f32)
    (x4 : FVec Ideal S256x256 .bf16) (x5 : FVec Ideal S1x256 .f32) (r : Fin 2048) (d : Fin 256) : EReal :=
  max ((∑ k : Fin 256, t1 x0 x2 x3 r k * x4 (ix2 k d)) + x5 (ix2 (0 : Fin 1) d)) 0

theorem pay7_apply (x0 : FVec Ideal S2048x768 .f32) (x2 : FVec Ideal S768x256 .bf16) (x3 : FVec Ideal S1x256 .f32)
    (x4 : FVec Ideal S256x256 .bf16) (x5 : FVec Ideal S1x256 .f32) (r : Fin 2048) (d : Fin 256) :
    k0_pay7 (F := Ideal) x0 x2 x3 x4 x5 (ix2 r d) = t2 x0 x2 x3 x4 x5 r d := by
  unfold k0_pay7 t2
  simp only [shapeCast_self]
  show max (matmul dot_S2048x256_S256x256_S2048x256_1_0_0_1_n_n none _ x4 _ (ix2 r d) + broadcastTo S2048x256 x5 _ (ix2 r d)) (Ideal.ofBits .f32 0x00000000#32) = _
  rw [mm2_apply, broadcastTo_1b_ab_apply, Ideal.ofBits_zero_f32]
  refine congrArg (fun z => max (z + x5 (ix2 (0 : Fin 1) d)) 0) (Finset.sum_congr rfl fun k _ => congrArg (· * x4 (ix2 k d)) ?_)
  show max (matmul dot_S2048x768_S768x256_S2048x256_1_0_0_1_n_n none _ x2 _ (ix2 r k) + broadcastTo S2048x256 x3 _ (ix2 r k)) (Ideal.ofBits .f32 0x00000000#32) = _
  rw [mm1_apply, broadcastTo_1b_ab_apply, Ideal.ofBits_zero_f32]
  rfl

/-! ## The three increments of a tile -/

/-- The weighted pool of the tile's features: `Σ_r x1[c,r]·t2 r d`. -/
theorem pay9_apply (x0 : FVec Ideal S2048x768 .f32) (x2 : FVec Ideal S768x256 .bf16) (x3 : FVec Ideal S1x256 .f32)
    (x4 : FVec Ideal S256x256 .bf16) (x5 : FVec Ideal S1x256 .f32) (x1 : FVec Ideal S64x2048 .f32) (c : Fin 64) (d : Fin 256) :
    k0_pay9 (F := Ideal) x0 x2 x3 x4 x5 x1 (ix2 c d) = ∑ r : Fin 2048, x1 (ix2 c r) * t2 x0 x2 x3 x4 x5 r d := by
  unfold k0_pay9 k0_pay8
  simp only [shapeCast_self]
  rw [mm3_apply]
  refine Finset.sum_congr rfl fun r _ => ?_
  show x1 (ix2 c r) * k0_pay7 (F := Ideal) x0 x2 x3 x4 x5 (ix2 r d) = _
  rw [pay7_apply]

/-- A sum over the rows of a 2048×256 array, at column `d`. -/
theorem rowsum_apply (v : FVec Ideal S2048x256 .f32) (d : Fin 256) :
    multiReduction .add [0] S256 v 0x00000000#32 reduces_S2048x256_S256 (.inl rfl) rfl (ix1 d) = ∑ r : Fin 2048, v (ix2 r d) := by
  refine (Ideal.multiReduction_add_single v 0x00000000#32 reduces_S2048x256_S256 (.inl rfl) rfl (ix1 d)).trans ?_
  refine Finset.sum_congr rfl fun r _ => congrArg v (funext fun a => Fin.ext ?_)
  match a with
  | ⟨0, _⟩ => rfl
  | ⟨1, _⟩ => rfl

/-- A sum over the columns of a 64×2048 array, at row `c`. -/
theorem colsum_apply (v : FVec Ideal S64x2048 .f32) (c : Fin 64) :
    multiReduction .add [1] S64 v 0x00000000#32 reduces_S64x2048_S64 (.inl rfl) rfl (ix1 c) = ∑ r : Fin 2048, v (ix2 c r) := by
  refine (Ideal.multiReduction_add_single v 0x00000000#32 reduces_S64x2048_S64 (.inl rfl) rfl (ix1 c)).trans ?_
  refine Finset.sum_congr rfl fun r _ => congrArg v (funext fun a => Fin.ext ?_)
  match a with
  | ⟨0, _⟩ => rfl
  | ⟨1, _⟩ => rfl

/-- The column sums of the tile's features: `Σ_r t2 r d`. -/
theorem pay10_apply (x0 : FVec Ideal S2048x768 .f32) (x2 : FVec Ideal S768x256 .bf16) (x3 : FVec Ideal S1x256 .f32)
    (x4 : FVec Ideal S256x256 .bf16) (x5 : FVec Ideal S1x256 .f32) (u : Fin 1) (d : Fin 256) :
    k0_pay10 (F := Ideal) x0 x2 x3 x4 x5 (ix2 u d) = ∑ r : Fin 2048, t2 x0 x2 x3 x4 x5 r d := by
  unfold k0_pay10
  refine (shapeCast_a_1a_apply _ shapeCasts_S256_S1x256 u d).trans ?_
  refine (rowsum_apply _ d).trans ?_
  exact Finset.sum_congr rfl fun r _ => pay7_apply x0 x2 x3 x4 x5 r d

/-- A vector cast to a column reads, at `(c, u)`, the vector at `c`. -/
theorem shapeCast_a_a1_apply {a : ℕ} (x : (⟨1, ![a]⟩ : Shape).Idx → EReal) (h : (⟨1, ![a]⟩ : Shape).ShapeCasts ⟨2, ![a, 1]⟩)
    (c : Fin a) (u : Fin 1) : shapeCast ⟨2, ![a, 1]⟩ x h (ix2 c u) = x (ix1 c) :=
  shapeCast_apply x h _ _ (by
    have hu : u.val = 0 := by omega
    rw [Shape.rowMajor_val_two, Shape.rowMajor_val_one]
    show c.val = c.val * 1 + u.val
    rw [hu, Nat.mul_one, Nat.add_zero])

/-- The row sums of the tile's weights: `Σ_r x1[c,r]`. -/
theorem pay11_apply (x1 : FVec Ideal S64x2048 .f32) (c : Fin 64) (u : Fin 1) :
    k0_pay11 (F := Ideal) x1 (ix2 c u) = ∑ r : Fin 2048, x1 (ix2 c r) := by
  unfold k0_pay11 k0_pay8
  simp only [shapeCast_self]
  refine (shapeCast_a_a1_apply _ shapeCasts_S64_S64x1 c u).trans ?_
  exact colsum_apply x1 c

/-! ## Adding an increment to an accumulator -/

theorem pay1_apply (v28 : FVec Ideal S64x256 .f32) (v33 : FVec Ideal S1x64x256 .f32) (u : Fin 1) (c : Fin 64) (d : Fin 256) :
    k0_pay1 (F := Ideal) v28 v33 (ix3 u c d) = v33 (ix3 u c d) + v28 (ix2 c d) := by
  unfold k0_pay1
  simp only [shapeCast_self]
  show v33 (ix3 u c d) + shapeCast S1x64x256 v28 shapeCasts_S64x256_S1x64x256 (ix3 u c d) = _
  rw [shapeCast_ab_1ab_apply]

theorem pay2_apply (v30 : FVec Ideal S1x256 .f32) (v38 : FVec Ideal S1x1x256 .f32) (u w : Fin 1) (d : Fin 256) :
    k0_pay2 (F := Ideal) v30 v38 (ix3 u w d) = v38 (ix3 u w d) + v30 (ix2 w d) := by
  unfold k0_pay2
  simp only [shapeCast_self]
  show v38 (ix3 u w d) + shapeCast S1x1x256 v30 shapeCasts_S1x256_S1x1x256 (ix3 u w d) = _
  rw [shapeCast_ab_1ab_apply]

theorem pay3_apply (v32 : FVec Ideal S64x1 .f32) (v43 : FVec Ideal S1x64x1 .f32) (u : Fin 1) (c : Fin 64) (w : Fin 1) :
    k0_pay3 (F := Ideal) v32 v43 (ix3 u c w) = v43 (ix3 u c w) + v32 (ix2 c w) := by
  unfold k0_pay3
  simp only [shapeCast_self]
  show v43 (ix3 u c w) + shapeCast S1x64x1 v32 shapeCasts_S64x1_S1x64x1 (ix3 u c w) = _
  rw [shapeCast_ab_1ab_apply]

theorem pay4_apply (i : S1x64x256.Idx) : k0_pay4 (F := Ideal) i = 0 := Ideal.ofBits_zero_f32
theorem pay5_apply (i : S1x1x256.Idx) : k0_pay5 (F := Ideal) i = 0 := Ideal.ofBits_zero_f32
theorem pay6_apply (i : S1x64x1.Idx) : k0_pay6 (F := Ideal) i = 0 := Ideal.ofBits_zero_f32

end Cert.KernelIdeal.Pool

end
-- ==== Proof.LibSumBlocks.lean ====
/-
  Re-grouping a finite sum into consecutive blocks, in any commutative additive monoid (so in particular over the extended
  reals, where it needs no finiteness): a sum over J·B consecutive naturals is the sum over J blocks of B. This is the law
  behind a contraction that is accumulated block by block along its contracted axis (a K-blocked matrix product kept in an
  accumulator across grid points or loop trips) against ONE whole contraction.
-/
import Mathlib.Algebra.BigOperators.Fin

namespace Cert.LibSumBlocks

/-- A sum over `J * B` consecutive naturals is the sum over `J` blocks of `B`: term `x = j * B + s` is term `s` of block `j`. -/
theorem sum_range_blocks {M : Type*} [AddCommMonoid M] (g : ℕ → M) (B : ℕ) : ∀ J : ℕ,
    ∑ x ∈ Finset.range (J * B), g x = ∑ j ∈ Finset.range J, ∑ s ∈ Finset.range B, g (j * B + s)
  | 0 => by simp
  | J + 1 => by
    rw [Nat.succ_mul, Finset.sum_range_add, Finset.sum_range_succ, sum_range_blocks g B J]

/-- The same with the whole sum over the index type `Fin (J * B)` (the form a contraction read at an index has). -/
theorem sum_fin_blocks {M : Type*} [AddCommMonoid M] (g : ℕ → M) (B J : ℕ) :
    ∑ k : Fin (J * B), g k.val = ∑ j ∈ Finset.range J, ∑ s ∈ Finset.range B, g (j * B + s) :=
  (Finset.sum_range g).symm.trans (sum_range_blocks g B J)

end Cert.LibSumBlocks
-- ==== Proof.LibRegroup.lean ====
/-
  Two laws of finite sums in a commutative additive monoid (so over the extended reals, with no finiteness asked).

  * A quantity that is RESET at the first point of every run of J consecutive points and that ADDS that point's
    contribution to what the point before left at every other point is, j points into a run, the sum of the run's
    first j + 1 contributions.
  * A sum over A·B·C·D consecutive naturals, regrouped: the outer sums over the first and the LAST digit of the
    mixed-radix expansion n = ((a·B + b)·C + c)·D + d, the inner sums over the two middle digits. This is the order in
    which a per-lane accumulator over a two-level grid collects a flat array: lane d of core a sums over the
    sequential steps b and the rows c of each block.
-/
import Mathlib.Algebra.BigOperators.Fin
import proofs.«173076_j45148696215988_2_alg».proof.Proof.LibSumBlocks

namespace Cert.LibRegroup

/-- The running sum of a run of points: `f` is reset to the point's contribution `P` where `n % J = 0` and adds it
    elsewhere; at point `J·q + j` it holds the contributions of points `J·q … J·q + j`. -/
theorem run_sum {ι β : Type*} [AddCommMonoid β] {N : ℕ} (J : ℕ) (f P : (n : ℕ) → n < N → ι → β)
    (h0 : ∀ (n : ℕ) (h : n < N) (i : ι), n % J = 0 → f n h i = P n h i)
    (hs : ∀ (n : ℕ) (h : n + 1 < N) (i : ι), ¬(n + 1) % J = 0 →
      f (n + 1) h i = f n (Nat.lt_of_succ_lt h) i + P (n + 1) h i)
    (q : ℕ) (i : ι) : ∀ (j : ℕ) (_ : j < J) (h : J * q + j < N),
      f (J * q + j) h i = ∑ s : Fin (j + 1), P (J * q + s.val) (by have := s.isLt; omega) i
  | 0, _, h => by
    rw [Fin.sum_univ_castSucc, Fin.sum_univ_zero, zero_add]
    exact h0 _ h i (by rw [Nat.add_zero, Nat.mul_mod_right])
  | j + 1, hj, h => by
    have hne : ¬(J * q + j + 1) % J = 0 := by
      rw [Nat.add_assoc, Nat.mul_add_mod, Nat.mod_eq_of_lt hj]; exact Nat.succ_ne_zero j
    rw [Fin.sum_univ_castSucc]
    have ih := run_sum J f P h0 hs q i j (Nat.lt_of_succ_lt hj) (Nat.lt_of_succ_lt h)
    have step := hs (J * q + j) h i hne
    rw [ih] at step
    exact step

/-- A sum over `A·B·C·D` consecutive naturals by the digits of `n = ((a·B + b)·C + c)·D + d`, the first and the last
    digit outermost. -/
theorem sum_range_four {β : Type*} [AddCommMonoid β] (g : ℕ → β) (A B C D : ℕ) :
    ∑ n ∈ Finset.range (A * B * C * D), g n
      = ∑ a ∈ Finset.range A, ∑ d ∈ Finset.range D, ∑ b ∈ Finset.range B, ∑ c ∈ Finset.range C,
          g (((a * B + b) * C + c) * D + d) := by
  rw [Cert.LibSumBlocks.sum_range_blocks g D (A * B * C),
    Cert.LibSumBlocks.sum_range_blocks (fun x => ∑ d ∈ Finset.range D, g (x * D + d)) C (A * B),
    Cert.LibSumBlocks.sum_range_blocks (fun x => ∑ c ∈ Finset.range C, ∑ d ∈ Finset.range D, g ((x * C + c) * D + d)) B A]
  refine Finset.sum_congr rfl fun a _ => ?_
  calc ∑ b ∈ Finset.range B, ∑ c ∈ Finset.range C, ∑ d ∈ Finset.range D, g (((a * B + b) * C + c) * D + d)
      = ∑ b ∈ Finset.range B, ∑ d ∈ Finset.range D, ∑ c ∈ Finset.range C, g (((a * B + b) * C + c) * D + d) :=
        Finset.sum_congr rfl fun b _ => Finset.sum_comm
    _ = ∑ d ∈ Finset.range D, ∑ b ∈ Finset.range B, ∑ c ∈ Finset.range C, g (((a * B + b) * C + c) * D + d) :=
        Finset.sum_comm

/-- The same over index types: the whole sum over `Fin N` with `N = A·B·C·D`. -/
theorem sum_fin_four {β : Type*} [AddCommMonoid β] (g : ℕ → β) (A B C D N : ℕ) (hN : N = A * B * C * D) :
    ∑ n : Fin N, g n.val
      = ∑ a : Fin A, ∑ d : Fin D, ∑ b : Fin B, ∑ c : Fin C, g (((a.val * B + b.val) * C + c.val) * D + d.val) := by
  subst hN
  rw [← Finset.sum_range g, sum_range_four g A B C D,
    Finset.sum_range (fun a => ∑ d ∈ Finset.range D, ∑ b ∈ Finset.range B, ∑ c ∈ Finset.range C, g (((a * B + b) * C + c) * D + d))]
  refine Finset.sum_congr rfl fun a _ => ?_
  rw [Finset.sum_range (fun d => ∑ b ∈ Finset.range B, ∑ c ∈ Finset.range C, g (((a.val * B + b) * C + c) * D + d))]
  refine Finset.sum_congr rfl fun d _ => ?_
  rw [Finset.sum_range (fun b => ∑ c ∈ Finset.range C, g (((a.val * B + b) * C + c) * D + d.val))]
  refine Finset.sum_congr rfl fun b _ => ?_
  rw [Finset.sum_range (fun c => g (((a.val * B + b.val) * C + c) * D + d.val))]

end Cert.LibRegroup
-- ==== Proof.Accum.lean ====
/-
  The three accumulators after each grid point.

  The 32 grid points run in order; point `n` belongs to half `n / 16` and is tile `n % 16` of that half.  Each
  accumulator is reset at the first tile of a half and otherwise adds the tile's increment, so after tile `j` of
  half `q` it holds the sum of the increments of tiles `0 … j` of that half.
-/
import proofs.«173076_j45148696215988_2_alg».proof.Proof.Pieces
import proofs.«173076_j45148696215988_2_alg».proof.Proof.Body
import proofs.«173076_j45148696215988_2_alg».proof.Proof.LibRegroup

noncomputable section

open Idealize.ShloMosaic Idealize.ShloMosaic.TcCoe Idealize.ShloMosaic.ValueIdx Idealize.SL.Sem

namespace Cert.KernelIdeal.Pool

open Cert.KernelIdeal Cert.KernelIdeal.Gen

variable (m : (ℓ : Loc nD τ sig) → Buf (Elt Ideal) ℓ)

/-- The hidden features of the tile of point `t`. -/
def tileH (c : Dev nD) (t : Fin cfg0.N) (r : Fin 2048) (d : Fin 256) : EReal :=
  t2 (iblk m c 0 t) (iblk m c 2 t) (iblk m c 3 t) (iblk m c 4 t) (iblk m c 5 t) r d

/-- The weights of the tile of point `t`: label column `cc`, row `r` of the tile. -/
def tileY (c : Dev nD) (t : Fin cfg0.N) (cc : Fin 64) (r : Fin 2048) : EReal :=
  (iblk m c 1 t : FVec Ideal S64x2048 .f32) (ix2 cc r)

/-- The increments of point `n` (zero past the grid, so that sums over points carry no proofs). -/
def inc6 (c : Dev nD) (n : ℕ) (cc : Fin 64) (d : Fin 256) : EReal :=
  if h : n < cfg0.N then ∑ r : Fin 2048, tileY m c ⟨n, h⟩ cc r * tileH m c ⟨n, h⟩ r d else 0
def inc7 (c : Dev nD) (n : ℕ) (d : Fin 256) : EReal :=
  if h : n < cfg0.N then ∑ r : Fin 2048, tileH m c ⟨n, h⟩ r d else 0
def inc8 (c : Dev nD) (n : ℕ) (cc : Fin 64) : EReal :=
  if h : n < cfg0.N then ∑ r : Fin 2048, tileY m c ⟨n, h⟩ cc r else 0

/-- First tile of a half: accumulator 0 holds the tile's increment. -/
theorem first6 (c : Dev nD) (n : ℕ) (h : n < cfg0.N) (h0 : n % 16 = 0) (u : Fin 1) (cc : Fin 64) (d : Fin 256) :
    (outsAt0 m c n h).1 (ix3 u cc d) = inc6 m c n cc d := by
  have e := outsAt0_A m c ⟨n, h⟩ h0
  rw [out_A_6 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) ((hcond0_0 ⟨n, h⟩).mpr h0) (iblk m c 0 ⟨n, h⟩) (iblk m c 1 ⟨n, h⟩) (iblk m c 2 ⟨n, h⟩) (iblk m c 3 ⟨n, h⟩) (iblk m c 4 ⟨n, h⟩) (iblk m c 5 ⟨n, h⟩)] at e
  have e' := congrArg (fun p => p.1 (ix3 u cc d)) e
  dsimp only at e'
  refine e'.trans ?_
  rw [pay1_apply, pay4_apply, zero_add, pay9_apply]
  unfold inc6
  rw [dif_pos h]
  rfl

/-- Any other tile: accumulator 0 holds what the previous point left plus the tile's increment. -/
theorem next6 (c : Dev nD) (n : ℕ) (h : n + 1 < cfg0.N) (h0 : ¬(n + 1) % 16 = 0) (u : Fin 1) (cc : Fin 64) (d : Fin 256) :
    (outsAt0 m c (n + 1) h).1 (ix3 u cc d) = (outsAt0 m c n (Nat.lt_of_succ_lt h)).1 (ix3 u cc d) + inc6 m c (n + 1) cc d := by
  have e := outsAt0_B m c ⟨n + 1, h⟩ h0
  rw [out_B_6 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)] at e
  have e' := congrArg (fun p => p.1 (ix3 u cc d)) e
  dsimp only at e'
  refine e'.trans ?_
  rw [pay1_apply, pay9_apply]
  unfold inc6
  rw [dif_pos h]
  rfl

/-- First tile of a half: accumulator 1 holds the tile's increment. -/
theorem first7 (c : Dev nD) (n : ℕ) (h : n < cfg0.N) (h0 : n % 16 = 0) (u w : Fin 1) (d : Fin 256) :
    (outsAt0 m c n h).2.1 (ix3 u w d) = inc7 m c n d := by
  have e := outsAt0_A m c ⟨n, h⟩ h0
  rw [out_A_7 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) ((hcond0_0 ⟨n, h⟩).mpr h0) (iblk m c 0 ⟨n, h⟩) (iblk m c 1 ⟨n, h⟩) (iblk m c 2 ⟨n, h⟩) (iblk m c 3 ⟨n, h⟩) (iblk m c 4 ⟨n, h⟩) (iblk m c 5 ⟨n, h⟩)] at e
  have e' := congrArg (fun p => p.2.1 (ix3 u w d)) e
  dsimp only at e'
  refine e'.trans ?_
  rw [pay2_apply, pay5_apply, zero_add, pay10_apply]
  unfold inc7
  rw [dif_pos h]
  rfl

/-- Any other tile: accumulator 1 holds what the previous point left plus the tile's increment. -/
theorem next7 (c : Dev nD) (n : ℕ) (h : n + 1 < cfg0.N) (h0 : ¬(n + 1) % 16 = 0) (u w : Fin 1) (d : Fin 256) :
    (outsAt0 m c (n + 1) h).2.1 (ix3 u w d) = (outsAt0 m c n (Nat.lt_of_succ_lt h)).2.1 (ix3 u w d) + inc7 m c (n + 1) d := by
  have e := outsAt0_B m c ⟨n + 1, h⟩ h0
  rw [out_B_7 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)] at e
  have e' := congrArg (fun p => p.2.1 (ix3 u w d)) e
  dsimp only at e'
  refine e'.trans ?_
  rw [pay2_apply, pay10_apply]
  unfold inc7
  rw [dif_pos h]
  rfl

/-- First tile of a half: accumulator 2 holds the tile's increment. -/
theorem first8 (c : Dev nD) (n : ℕ) (h : n < cfg0.N) (h0 : n % 16 = 0) (u : Fin 1) (cc : Fin 64) (w : Fin 1) :
    (outsAt0 m c n h).2.2 (ix3 u cc w) = inc8 m c n cc := by
  have e := outsAt0_A m c ⟨n, h⟩ h0
  rw [out_A_8 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) ((hcond0_0 ⟨n, h⟩).mpr h0) (iblk m c 0 ⟨n, h⟩) (iblk m c 1 ⟨n, h⟩) (iblk m c 2 ⟨n, h⟩) (iblk m c 3 ⟨n, h⟩) (iblk m c 4 ⟨n, h⟩) (iblk m c 5 ⟨n, h⟩)] at e
  have e' := congrArg (fun p => p.2.2 (ix3 u cc w)) e
  dsimp only at e'
  refine e'.trans ?_
  rw [pay3_apply, pay6_apply, zero_add, pay11_apply]
  unfold inc8
  rw [dif_pos h]
  rfl

/-- Any other tile: accumulator 2 holds what the previous point left plus the tile's increment. -/
theorem next8 (c : Dev nD) (n : ℕ) (h : n + 1 < cfg0.N) (h0 : ¬(n + 1) % 16 = 0) (u : Fin 1) (cc : Fin 64) (w : Fin 1) :
    (outsAt0 m c (n + 1) h).2.2 (ix3 u cc w) = (outsAt0 m c n (Nat.lt_of_succ_lt h)).2.2 (ix3 u cc w) + inc8 m c (n + 1) cc := by
  have e := outsAt0_B m c ⟨n + 1, h⟩ h0
  rw [out_B_8 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)] at e
  have e' := congrArg (fun p => p.2.2 (ix3 u cc w)) e
  dsimp only at e'
  refine e'.trans ?_
  rw [pay3_apply, pay11_apply]
  unfold inc8
  rw [dif_pos h]
  rfl

/-- After tile `j` of half `q` accumulator 0 holds the increments of tiles `0 … j` of that half, summed. -/
theorem acc6 (c : Dev nD) (u : Fin 1) (q j : ℕ) (hj : j < 16) (h : 16 * q + j < cfg0.N) (cc : Fin 64) (d : Fin 256) :
    (outsAt0 m c (16 * q + j) h).1 (ix3 u cc d) = ∑ s : Fin (j + 1), inc6 m c (16 * q + s.val) cc d :=
  Cert.LibRegroup.run_sum (N := cfg0.N) 16 (fun n h (i : Fin 64 × Fin 256) => (outsAt0 m c n h).1 (ix3 u i.1 i.2))
    (fun n _ i => inc6 m c n i.1 i.2)
    (fun n h i h0 => first6 m c n h h0 u i.1 i.2) (fun n h i h0 => next6 m c n h h0 u i.1 i.2) q (cc, d) j hj h

theorem acc7 (c : Dev nD) (u w : Fin 1) (q j : ℕ) (hj : j < 16) (h : 16 * q + j < cfg0.N) (d : Fin 256) :
    (outsAt0 m c (16 * q + j) h).2.1 (ix3 u w d) = ∑ s : Fin (j + 1), inc7 m c (16 * q + s.val) d :=
  Cert.LibRegroup.run_sum (N := cfg0.N) 16 (fun n h (i : Fin 256) => (outsAt0 m c n h).2.1 (ix3 u w i))
    (fun n _ i => inc7 m c n i)
    (fun n h i h0 => first7 m c n h h0 u w i) (fun n h i h0 => next7 m c n h h0 u w i) q d j hj h

theorem acc8 (c : Dev nD) (u w : Fin 1) (q j : ℕ) (hj : j < 16) (h : 16 * q + j < cfg0.N) (cc : Fin 64) :
    (outsAt0 m c (16 * q + j) h).2.2 (ix3 u cc w) = ∑ s : Fin (j + 1), inc8 m c (16 * q + s.val) cc :=
  Cert.LibRegroup.run_sum (N := cfg0.N) 16 (fun n h (i : Fin 64) => (outsAt0 m c n h).2.2 (ix3 u i w))
    (fun n _ i => inc8 m c n i)
    (fun n h i h0 => first8 m c n h h0 u i w) (fun n h i h0 => next8 m c n h h0 u i w) q cc j hj h

end Cert.KernelIdeal.Pool

end
-- ==== Proof.Final.lean ====
/-
  The three result arrays of the region.

  Accumulator `w` is written back after the last tile of each half, into slot `a` (the half's number) of its
  result array; so slot `a` ends holding the sum of the increments of the sixteen tiles of half `a`.
-/
import proofs.«173076_j45148696215988_2_alg».proof.Proof.Accum
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Pool

open Cert.KernelIdeal Cert.KernelIdeal.Gen

variable (m : (ℓ : Loc nD τ sig) → Buf (Elt Ideal) ℓ)

/-- Where each output window's block sits at point `t`: slot `t / 16`, decided once over the grid. -/
theorem idx_out : ∀ t : Fin cfg0.N,
    win0_6.index t (0 : Fin 3) = t.val / 16 ∧ win0_6.index t (1 : Fin 3) = 0 ∧ win0_6.index t (2 : Fin 3) = 0
    ∧ win0_7.index t (0 : Fin 3) = t.val / 16 ∧ win0_7.index t (1 : Fin 3) = 0 ∧ win0_7.index t (2 : Fin 3) = 0
    ∧ win0_8.index t (0 : Fin 3) = t.val / 16 ∧ win0_8.index t (1 : Fin 3) = 0 ∧ win0_8.index t (2 : Fin 3) = 0 :=
  (by decide +kernel : ∀ t : Fin grid0.N, _)

/-- Slot `a` of result 0 at `(cc, d)`: the pooled increments of half `a`. -/
def g6 (c : Dev nD) (a : Fin 2) (cc : Fin 64) (d : Fin 256) : EReal := ∑ s : Fin 16, inc6 m c (16 * a.val + s.val) cc d
def g7 (c : Dev nD) (a : Fin 2) (w : Fin 1) (d : Fin 256) : EReal := ∑ s : Fin 16, inc7 m c (16 * a.val + s.val) d
def g8 (c : Dev nD) (a : Fin 2) (cc : Fin 64) (w : Fin 1) : EReal := ∑ s : Fin 16, inc8 m c (16 * a.val + s.val) cc

def G6 (c : Dev nD) : Buf (Elt Ideal) ((c : Thread nD τ).loc main_v7_0) := fun i => g6 m c (i 0) (i 1) (i 2)
def G7 (c : Dev nD) : Buf (Elt Ideal) ((c : Thread nD τ).loc main_v7_1) := fun i => g7 m c (i 0) (i 1) (i 2)
def G8 (c : Dev nD) : Buf (Elt Ideal) ((c : Thread nD τ).loc main_v7_2) := fun i => g8 m c (i 0) (i 1) (i 2)

/-- What the last tile of a half writes back for result 0 is that half's slot of `G6`. -/
theorem flushed6_eq (c : Dev nD) (t : Fin cfg0.N) (hf : (cfg0.win 6).flush t = true) :
    (dats m 0 c).flushed 6 t = ((cfg0.win 6).blk t).view.read (Elt Ideal) (G6 m c) := by
  have h15 : t.val % 16 = 15 := (flush0_6 t).mp hf
  have hN : t.val < 32 := lt_of_lt_of_eq t.isLt (show cfg0.N = 32 from N_0)
  have e0 := (idx_out t).1
  have e1 := (idx_out t).2.1
  have e2 := (idx_out t).2.2.1
  show (cfg0.win 6).cut (grid0.coords t) ((dats m 0 c).after 6 t) = _
  rw [after0_6]
  funext y
  obtain ⟨u, cc, d, rfl⟩ : ∃ (u : Fin 1) (cc : Fin 64) (d : Fin 256), y = ix3 u cc d := ⟨y 0, y 1, y 2, eq_ix3 y⟩
  have hu : u.val = 0 := by have := u.isLt; omega
  have hemb : ((cfg0.win 6).blk t).view.emb (ix3 u cc d) = ix3 (⟨t.val / 16, by omega⟩ : Fin 2) cc d := by
    funext a; apply Fin.ext
    match a with
    | ⟨0, _⟩ => show win0_6.index t (0 : Fin 3) * 1 + 1 * u.val = t.val / 16; rw [e0]; omega
    | ⟨1, _⟩ => show win0_6.index t (1 : Fin 3) * 64 + 1 * cc.val = cc.val; rw [e1]; omega
    | ⟨2, _⟩ => show win0_6.index t (2 : Fin 3) * 256 + 1 * d.val = d.val; rw [e2]; omega
  show (outsAt0 m c t.val t.isLt).1 (ix3 u cc d) = G6 m c (((cfg0.win 6).blk t).view.emb (ix3 u cc d))
  rw [hemb]
  show _ = ∑ s : Fin 16, inc6 m c (16 * (t.val / 16) + s.val) cc d
  obtain ⟨n, hn⟩ := t
  obtain ⟨q, rfl⟩ : ∃ q, n = 16 * q + 15 := ⟨n / 16, by dsimp only at h15; omega⟩
  have hq : (16 * q + 15) / 16 = q := by omega
  dsimp only
  rw [hq]
  exact acc6 m c u q 15 (by omega) hn cc d

/-- Membership in a block of result 0, coordinate by coordinate. -/
theorem mem_blk6 (t : Fin cfg0.N) (i : S2x64x256.Idx) :
    i ∈ ((cfg0.win 6).blk t).view.set ↔ ∀ a : Fin 3, win0_6.index t a * S1x64x256.size a ≤ (i a).val ∧ (i a).val < win0_6.index t a * S1x64x256.size a + S1x64x256.size a := by
  show i ∈ ((View.whole main_v7_0).slice (win0_6.rect t)).set ↔ _
  rw [View.set_slice_whole, Rect.mem_set_unit]
  exact Iff.rfl

/-- Every index of result 0 is in the block written back after the last tile of its half. -/
theorem cover6 (i : S2x64x256.Idx) : ∃ t : Fin cfg0.N, (cfg0.win 6).flush t = true ∧ i ∈ ((cfg0.win 6).blk t).view.set := by
  have h0 : (i 0).val < 2 := (i 0).isLt
  have h1 : (i 1).val < 64 := (i 1).isLt
  have h2 : (i 2).val < 256 := (i 2).isLt
  have hN : cfg0.N = 32 := N_0
  have ht : 16 * (i 0).val + 15 < cfg0.N := by omega
  have e0 := (idx_out ⟨16 * (i 0).val + 15, ht⟩).1
  have e1 := (idx_out ⟨16 * (i 0).val + 15, ht⟩).2.1
  have e2 := (idx_out ⟨16 * (i 0).val + 15, ht⟩).2.2.1
  dsimp only at e0 e1 e2
  refine ⟨⟨16 * (i 0).val + 15, ht⟩, (flush0_6 _).mpr (by dsimp only; omega), ?_⟩
  rw [mem_blk6]
  intro a
  match a with
  | ⟨0, _⟩ => show win0_6.index ⟨16 * (i 0).val + 15, ht⟩ (0 : Fin 3) * 1 ≤ (i 0).val ∧ (i 0).val < win0_6.index ⟨16 * (i 0).val + 15, ht⟩ (0 : Fin 3) * 1 + 1; rw [e0]; omega
  | ⟨1, _⟩ => show win0_6.index ⟨16 * (i 0).val + 15, ht⟩ (1 : Fin 3) * 64 ≤ (i 1).val ∧ (i 1).val < win0_6.index ⟨16 * (i 0).val + 15, ht⟩ (1 : Fin 3) * 64 + 64; rw [e1]; omega
  | ⟨2, _⟩ => show win0_6.index ⟨16 * (i 0).val + 15, ht⟩ (2 : Fin 3) * 256 ≤ (i 2).val ∧ (i 2).val < win0_6.index ⟨16 * (i 0).val + 15, ht⟩ (2 : Fin 3) * 256 + 256; rw [e2]; omega

/-- Result 0 after the region. -/
theorem final6 (c : Dev nD) : (dats m 0 c).arrAt 6 cfg0.N = G6 m c :=
  (dats m 0 c).arrAt_eq_of_cover 6 (G6 m c) (flushed6_eq m c) (cover6)

/-- What the last tile of a half writes back for result 1 is that half's slot of `G7`. -/
theorem flushed7_eq (c : Dev nD) (t : Fin cfg0.N) (hf : (cfg0.win 7).flush t = true) :
    (dats m 0 c).flushed 7 t = ((cfg0.win 7).blk t).view.read (Elt Ideal) (G7 m c) := by
  have h15 : t.val % 16 = 15 := (flush0_7 t).mp hf
  have hN : t.val < 32 := lt_of_lt_of_eq t.isLt (show cfg0.N = 32 from N_0)
  have e0 := (idx_out t).2.2.2.1
  have e1 := (idx_out t).2.2.2.2.1
  have e2 := (idx_out t).2.2.2.2.2.1
  show (cfg0.win 7).cut (grid0.coords t) ((dats m 0 c).after 7 t) = _
  rw [after0_7]
  funext y
  obtain ⟨u, w, d, rfl⟩ : ∃ (u : Fin 1) (w : Fin 1) (d : Fin 256), y = ix3 u w d := ⟨y 0, y 1, y 2, eq_ix3 y⟩
  have hu : u.val = 0 := by have := u.isLt; omega
  have hemb : ((cfg0.win 7).blk t).view.emb (ix3 u w d) = ix3 (⟨t.val / 16, by omega⟩ : Fin 2) w d := by
    funext a; apply Fin.ext
    match a with
    | ⟨0, _⟩ => show win0_7.index t (0 : Fin 3) * 1 + 1 * u.val = t.val / 16; rw [e0]; omega
    | ⟨1, _⟩ => show win0_7.index t (1 : Fin 3) * 1 + 1 * w.val = w.val; rw [e1]; omega
    | ⟨2, _⟩ => show win0_7.index t (2 : Fin 3) * 256 + 1 * d.val = d.val; rw [e2]; omega
  show (outsAt0 m c t.val t.isLt).2.1 (ix3 u w d) = G7 m c (((cfg0.win 7).blk t).view.emb (ix3 u w d))
  rw [hemb]
  show _ = ∑ s : Fin 16, inc7 m c (16 * (t.val / 16) + s.val) d
  obtain ⟨n, hn⟩ := t
  obtain ⟨q, rfl⟩ : ∃ q, n = 16 * q + 15 := ⟨n / 16, by dsimp only at h15; omega⟩
  have hq : (16 * q + 15) / 16 = q := by omega
  dsimp only
  rw [hq]
  exact acc7 m c u w q 15 (by omega) hn d

/-- Membership in a block of result 1, coordinate by coordinate. -/
theorem mem_blk7 (t : Fin cfg0.N) (i : S2x1x256.Idx) :
    i ∈ ((cfg0.win 7).blk t).view.set ↔ ∀ a : Fin 3, win0_7.index t a * S1x1x256.size a ≤ (i a).val ∧ (i a).val < win0_7.index t a * S1x1x256.size a + S1x1x256.size a := by
  show i ∈ ((View.whole main_v7_1).slice (win0_7.rect t)).set ↔ _
  rw [View.set_slice_whole, Rect.mem_set_unit]
  exact Iff.rfl

/-- Every index of result 1 is in the block written back after the last tile of its half. -/
theorem cover7 (i : S2x1x256.Idx) : ∃ t : Fin cfg0.N, (cfg0.win 7).flush t = true ∧ i ∈ ((cfg0.win 7).blk t).view.set := by
  have h0 : (i 0).val < 2 := (i 0).isLt
  have h1 : (i 1).val < 1 := (i 1).isLt
  have h2 : (i 2).val < 256 := (i 2).isLt
  have hN : cfg0.N = 32 := N_0
  have ht : 16 * (i 0).val + 15 < cfg0.N := by omega
  have e0 := (idx_out ⟨16 * (i 0).val + 15, ht⟩).2.2.2.1
  have e1 := (idx_out ⟨16 * (i 0).val + 15, ht⟩).2.2.2.2.1
  have e2 := (idx_out ⟨16 * (i 0).val + 15, ht⟩).2.2.2.2.2.1
  dsimp only at e0 e1 e2
  refine ⟨⟨16 * (i 0).val + 15, ht⟩, (flush0_7 _).mpr (by dsimp only; omega), ?_⟩
  rw [mem_blk7]
  intro a
  match a with
  | ⟨0, _⟩ => show win0_7.index ⟨16 * (i 0).val + 15, ht⟩ (0 : Fin 3) * 1 ≤ (i 0).val ∧ (i 0).val < win0_7.index ⟨16 * (i 0).val + 15, ht⟩ (0 : Fin 3) * 1 + 1; rw [e0]; omega
  | ⟨1, _⟩ => show win0_7.index ⟨16 * (i 0).val + 15, ht⟩ (1 : Fin 3) * 1 ≤ (i 1).val ∧ (i 1).val < win0_7.index ⟨16 * (i 0).val + 15, ht⟩ (1 : Fin 3) * 1 + 1; rw [e1]; omega
  | ⟨2, _⟩ => show win0_7.index ⟨16 * (i 0).val + 15, ht⟩ (2 : Fin 3) * 256 ≤ (i 2).val ∧ (i 2).val < win0_7.index ⟨16 * (i 0).val + 15, ht⟩ (2 : Fin 3) * 256 + 256; rw [e2]; omega

/-- Result 1 after the region. -/
theorem final7 (c : Dev nD) : (dats m 0 c).arrAt 7 cfg0.N = G7 m c :=
  (dats m 0 c).arrAt_eq_of_cover 7 (G7 m c) (flushed7_eq m c) (cover7)

/-- What the last tile of a half writes back for result 2 is that half's slot of `G8`. -/
theorem flushed8_eq (c : Dev nD) (t : Fin cfg0.N) (hf : (cfg0.win 8).flush t = true) :
    (dats m 0 c).flushed 8 t = ((cfg0.win 8).blk t).view.read (Elt Ideal) (G8 m c) := by
  have h15 : t.val % 16 = 15 := (flush0_8 t).mp hf
  have hN : t.val < 32 := lt_of_lt_of_eq t.isLt (show cfg0.N = 32 from N_0)
  have e0 := (idx_out t).2.2.2.2.2.2.1
  have e1 := (idx_out t).2.2.2.2.2.2.2.1
  have e2 := (idx_out t).2.2.2.2.2.2.2.2
  show (cfg0.win 8).cut (grid0.coords t) ((dats m 0 c).after 8 t) = _
  rw [after0_8]
  funext y
  obtain ⟨u, cc, w, rfl⟩ : ∃ (u : Fin 1) (cc : Fin 64) (w : Fin 1), y = ix3 u cc w := ⟨y 0, y 1, y 2, eq_ix3 y⟩
  have hu : u.val = 0 := by have := u.isLt; omega
  have hemb : ((cfg0.win 8).blk t).view.emb (ix3 u cc w) = ix3 (⟨t.val / 16, by omega⟩ : Fin 2) cc w := by
    funext a; apply Fin.ext
    match a with
    | ⟨0, _⟩ => show win0_8.index t (0 : Fin 3) * 1 + 1 * u.val = t.val / 16; rw [e0]; omega
    | ⟨1, _⟩ => show win0_8.index t (1 : Fin 3) * 64 + 1 * cc.val = cc.val; rw [e1]; omega
    | ⟨2, _⟩ => show win0_8.index t (2 : Fin 3) * 1 + 1 * w.val = w.val; rw [e2]; omega
  show (outsAt0 m c t.val t.isLt).2.2 (ix3 u cc w) = G8 m c (((cfg0.win 8).blk t).view.emb (ix3 u cc w))
  rw [hemb]
  show _ = ∑ s : Fin 16, inc8 m c (16 * (t.val / 16) + s.val) cc
  obtain ⟨n, hn⟩ := t
  obtain ⟨q, rfl⟩ : ∃ q, n = 16 * q + 15 := ⟨n / 16, by dsimp only at h15; omega⟩
  have hq : (16 * q + 15) / 16 = q := by omega
  dsimp only
  rw [hq]
  exact acc8 m c u w q 15 (by omega) hn cc

/-- Membership in a block of result 2, coordinate by coordinate. -/
theorem mem_blk8 (t : Fin cfg0.N) (i : S2x64x1.Idx) :
    i ∈ ((cfg0.win 8).blk t).view.set ↔ ∀ a : Fin 3, win0_8.index t a * S1x64x1.size a ≤ (i a).val ∧ (i a).val < win0_8.index t a * S1x64x1.size a + S1x64x1.size a := by
  show i ∈ ((View.whole main_v7_2).slice (win0_8.rect t)).set ↔ _
  rw [View.set_slice_whole, Rect.mem_set_unit]
  exact Iff.rfl

/-- Every index of result 2 is in the block written back after the last tile of its half. -/
theorem cover8 (i : S2x64x1.Idx) : ∃ t : Fin cfg0.N, (cfg0.win 8).flush t = true ∧ i ∈ ((cfg0.win 8).blk t).view.set := by
  have h0 : (i 0).val < 2 := (i 0).isLt
  have h1 : (i 1).val < 64 := (i 1).isLt
  have h2 : (i 2).val < 1 := (i 2).isLt
  have hN : cfg0.N = 32 := N_0
  have ht : 16 * (i 0).val + 15 < cfg0.N := by omega
  have e0 := (idx_out ⟨16 * (i 0).val + 15, ht⟩).2.2.2.2.2.2.1
  have e1 := (idx_out ⟨16 * (i 0).val + 15, ht⟩).2.2.2.2.2.2.2.1
  have e2 := (idx_out ⟨16 * (i 0).val + 15, ht⟩).2.2.2.2.2.2.2.2
  dsimp only at e0 e1 e2
  refine ⟨⟨16 * (i 0).val + 15, ht⟩, (flush0_8 _).mpr (by dsimp only; omega), ?_⟩
  rw [mem_blk8]
  intro a
  match a with
  | ⟨0, _⟩ => show win0_8.index ⟨16 * (i 0).val + 15, ht⟩ (0 : Fin 3) * 1 ≤ (i 0).val ∧ (i 0).val < win0_8.index ⟨16 * (i 0).val + 15, ht⟩ (0 : Fin 3) * 1 + 1; rw [e0]; omega
  | ⟨1, _⟩ => show win0_8.index ⟨16 * (i 0).val + 15, ht⟩ (1 : Fin 3) * 64 ≤ (i 1).val ∧ (i 1).val < win0_8.index ⟨16 * (i 0).val + 15, ht⟩ (1 : Fin 3) * 64 + 64; rw [e1]; omega
  | ⟨2, _⟩ => show win0_8.index ⟨16 * (i 0).val + 15, ht⟩ (2 : Fin 3) * 1 ≤ (i 2).val ∧ (i 2).val < win0_8.index ⟨16 * (i 0).val + 15, ht⟩ (2 : Fin 3) * 1 + 1; rw [e2]; omega

/-- Result 2 after the region. -/
theorem final8 (c : Dev nD) : (dats m 0 c).arrAt 8 cfg0.N = G8 m c :=
  (dats m 0 c).arrAt_eq_of_cover 8 (G8 m c) (flushed8_eq m c) (cover8)

end Cert.KernelIdeal.Pool

end
-- ==== Proof.Spec.lean ====
/-
  The mathematics both programs compute, written once over the extended reals.

  A two-layer perceptron with rectifiers maps each of the 65536 rows of `X` to 256 hidden features
  `hid s d = max (Σ_k max (Σ_e X[s,e]·w1[k,e] + b1[k]) 0 · w2[d,k] + b2[d]) 0`.
  For each of the 64 label columns `c` the features are pooled over the rows with the weights `y[s,c]` and with
  the complementary weights `1 − y[s,c]`, each pool divided by its total weight (clamped below by a small
  constant).  One program forms the complementary pool directly; the other forms the column sums of the
  features and of the weights once and subtracts: `Σ_s (1 − y_s)·H_s = Σ_s H_s − Σ_s y_s·H_s` and
  `Σ_s (1 − y_s) = 65536 − Σ_s y_s`, which hold because every `y_s` and `H_s` is a real number.
-/
import Idealize.ShloMosaic.PureOps.Ideal
import Idealize.ShloMosaic.PureOps.Ideal.Laws
import Idealize.ShloMosaic.Lib.ValueIdx

noncomputable section

namespace Cert.Pool

open Idealize.ShloMosaic Idealize.ShloMosaic.ValueIdx

/-- An array of extended reals over a literal shape. -/
abbrev Arr (s : Shape) : Type := s.Idx → EReal

/-- The clamp of the two total weights, as the f32 word both programs spell. -/
abbrev epsW : EReal := Ideal.ofBits .f32 0x358637BD#32
/-- The f32 word of `1.0`. -/
abbrev oneW : EReal := Ideal.ofBits .f32 0x3F800000#32
/-- The f32 word of `65536.0`, the number of rows. -/
abbrev rowsW : EReal := Ideal.ofBits .f32 0x47800000#32

/-- First layer: `max (Σ_e X[s,e]·w1[k,e] + b1[k]) 0`. -/
def hid1 (X : Arr ⟨2, ![65536, 768]⟩) (w1 : Arr ⟨2, ![256, 768]⟩) (b1 : Arr ⟨1, ![256]⟩)
    (s : Fin 65536) (k : Fin 256) : EReal :=
  max ((∑ e : Fin 768, X (ix2 s e) * w1 (ix2 k e)) + b1 (ix1 k)) 0

/-- Second layer: `max (Σ_k hid1[s,k]·w2[d,k] + b2[d]) 0`. -/
def hid (X : Arr ⟨2, ![65536, 768]⟩) (w1 : Arr ⟨2, ![256, 768]⟩) (b1 : Arr ⟨1, ![256]⟩)
    (w2 : Arr ⟨2, ![256, 256]⟩) (b2 : Arr ⟨1, ![256]⟩) (s : Fin 65536) (d : Fin 256) : EReal :=
  max ((∑ k : Fin 256, hid1 X w1 b1 s k * w2 (ix2 d k)) + b2 (ix1 d)) 0

/-- The features pooled with the weights of column `c`: `Σ_s y[s,c]·H[s,d]`. -/
def poolPos (y : Arr ⟨2, ![65536, 64]⟩) (H : Fin 65536 → Fin 256 → EReal) (c : Fin 64) (d : Fin 256) : EReal :=
  ∑ s : Fin 65536, y (ix2 s c) * H s d

/-- The column sums of the features: `Σ_s H[s,d]`. -/
def colSum (H : Fin 65536 → Fin 256 → EReal) (d : Fin 256) : EReal := ∑ s : Fin 65536, H s d

/-- The total weight of column `c`: `Σ_s y[s,c]`. -/
def mass (y : Arr ⟨2, ![65536, 64]⟩) (c : Fin 64) : EReal := ∑ s : Fin 65536, y (ix2 s c)

/-- The pool with the weights `y`, normalised: `poolPos / max (mass, ε)`. -/
def rPos (y : Arr ⟨2, ![65536, 64]⟩) (H : Fin 65536 → Fin 256 → EReal) : Arr ⟨2, ![64, 256]⟩ :=
  fun i => Ideal.div (poolPos y H (i 0) (i 1)) (max (mass y (i 0)) epsW)

/-- The complementary pool as the subtracting program forms it:
    `(colSum − poolPos) / max (65536 − mass, ε)`. -/
def rNegSub (y : Arr ⟨2, ![65536, 64]⟩) (H : Fin 65536 → Fin 256 → EReal) : Arr ⟨2, ![64, 256]⟩ :=
  fun i => Ideal.div (colSum H (i 1) - poolPos y H (i 0) (i 1)) (max (rowsW - mass y (i 0)) epsW)

/-- The complementary pool as the direct program forms it:
    `(Σ_s (1 − y[s,c])·H[s,d]) / max (Σ_s (1 − y[s,c]), ε)`. -/
def rNegDirect (y : Arr ⟨2, ![65536, 64]⟩) (H : Fin 65536 → Fin 256 → EReal) : Arr ⟨2, ![64, 256]⟩ :=
  fun i => Ideal.div (∑ s : Fin 65536, (oneW - y (ix2 s (i 0))) * H s (i 1))
    (max (∑ s : Fin 65536, (oneW - y (ix2 s (i 0)))) epsW)

end Cert.Pool

end
-- ==== Proof.Blocks.lean ====
/-
  The tiles read back to the argument arrays.

  Point `t` of the grid reads rows `2048·t … 2048·t + 2047` of X and the same columns of the transposed weights;
  the four parameter blocks are the whole (transposed, reshaped) parameter arrays at every point.  So the hidden
  features of the tile are the hidden features of those rows, and the tile's weights are the weights of those rows.
-/
import proofs.«173076_j45148696215988_2_alg».proof.Proof.Accum
import proofs.«173076_j45148696215988_2_alg».proof.Proof.Spec
import Idealize.ShloMosaic.Lib.StableHlo.Run

noncomputable section

open Idealize.ShloMosaic Idealize.ShloMosaic.TcCoe Idealize.ShloMosaic.ValueIdx Idealize.SL.Sem Idealize.ShloMosaic.StableHlo

namespace Cert.KernelIdeal.Pool

open Cert.KernelIdeal Cert.KernelIdeal.Gen

variable (m : (ℓ : Loc nD τ sig) → Buf (Elt Ideal) ℓ)

/-- Where each input window's block sits at point `t`, decided once over the grid. -/
theorem idx_in : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The arrays the host lines before the region write. -/
theorem V_v6 (c : Dev nD) : (V m c main_v6 : S64x65536.Idx → EReal)
    = transpose S64x65536 [1, 0] (m ((c : Thread nD τ).loc main_arg1)) transposes_S65536x64_S64x65536_1_0 := by
  show StableHlo.after hostOps0 (fun b => m (c, b)) (Proc.devRef .tc main_v6) = _
  after_results <;> rfl
theorem V_v1 (c : Dev nD) : (V m c main_v1 : S768x256.Idx → EReal)
    = (truncf (F := Ideal) .bf16 (transpose S768x256 [1, 0] (m ((c : Thread nD τ).loc main_arg2)) transposes_S256x768_S768x256_1_0) bitsLt_bf16_f32 : S768x256.Idx → EReal) := by
  show StableHlo.after hostOps0 (fun b => m (c, b)) (Proc.devRef .tc main_v1) = _
  after_results <;> rfl
theorem V_v3 (c : Dev nD) : (V m c main_v3 : S256x256.Idx → EReal)
    = (truncf (F := Ideal) .bf16 (transpose S256x256 [1, 0] (m ((c : Thread nD τ).loc main_arg4)) transposes_S256x256_S256x256_1_0) bitsLt_bf16_f32 : S256x256.Idx → EReal) := by
  show StableHlo.after hostOps0 (fun b => m (c, b)) (Proc.devRef .tc main_v3) = _
  after_results <;> rfl
theorem V_v4 (c : Dev nD) : (V m c main_v4 : S1x256.Idx → EReal)
    = shapeCast S1x256 (m ((c : Thread nD τ).loc main_arg3)) shapeCasts_S256_S1x256 := by
  show StableHlo.after hostOps0 (fun b => m (c, b)) (Proc.devRef .tc main_v4) = _
  after_results <;> rfl
theorem V_v5 (c : Dev nD) : (V m c main_v5 : S1x256.Idx → EReal)
    = shapeCast S1x256 (m ((c : Thread nD τ).loc main_arg5)) shapeCasts_S256_S1x256 := by
  show StableHlo.after hostOps0 (fun b => m (c, b)) (Proc.devRef .tc main_v5) = _
  after_results <;> rfl

/-- Row `r` of the tile of point `t` is row `2048·t + r` of the array. -/
def rowOf (t : Fin cfg0.N) (r : Fin 2048) : Fin 65536 :=
  ⟨2048 * t.val + r.val, by have := r.isLt; have := lt_of_lt_of_eq t.isLt (show cfg0.N = 32 from N_0); omega⟩

theorem blk0_apply (c : Dev nD) (t : Fin cfg0.N) (r : Fin 2048) (e : Fin 768) :
    (iblk m c 0 t : FVec Ideal S2048x768 .f32) (ix2 r e) = m ((c : Thread nD τ).loc main_arg0) (ix2 (rowOf t r) e) := by
  obtain ⟨e0, e1, -⟩ := idx_in t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 2048 + 1 * r.val = 2048 * t.val + r.val; rw [e0]; omega
  | ⟨1, _⟩ => show win0_0.index t (1 : Fin 2) * 768 + 1 * e.val = e.val; rw [e1]; omega

theorem blk1_apply (c : Dev nD) (t : Fin cfg0.N) (cc : Fin 64) (r : Fin 2048) :
    (iblk m c 1 t : FVec Ideal S64x2048 .f32) (ix2 cc r) = m ((c : Thread nD τ).loc main_arg1) (ix2 (rowOf t r) cc) := by
  obtain ⟨-, -, e0, e1, -⟩ := idx_in t
  unfold iblk
  rw [View.read_apply]
  show (V m c main_v6 : S64x65536.Idx → EReal) _ = _
  rw [V_v6]
  refine Eq.trans (congrArg _ (?_ : _ = ix2 cc (rowOf t r))) (transpose_ix2_apply _ _ cc (rowOf t r))
  refine funext fun a => Fin.ext ?_
  match a with
  | ⟨0, _⟩ => show win0_1.index t (0 : Fin 2) * 64 + 1 * cc.val = cc.val; rw [e0]; omega
  | ⟨1, _⟩ => show win0_1.index t (1 : Fin 2) * 2048 + 1 * r.val = 2048 * t.val + r.val; rw [e1]; omega

theorem blk2_apply (c : Dev nD) (t : Fin cfg0.N) (e : Fin 768) (k : Fin 256) :
    (iblk m c 2 t : FVec Ideal S768x256 .bf16) (ix2 e k) = m ((c : Thread nD τ).loc main_arg2) (ix2 k e) := by
  obtain ⟨-, -, -, -, e0, e1, -⟩ := idx_in t
  unfold iblk
  rw [View.read_apply]
  show (V m c main_v1 : S768x256.Idx → EReal) _ = _
  rw [V_v1]
  refine Eq.trans (congrArg _ (?_ : _ = ix2 e k)) (transpose_ix2_apply _ _ e k)
  refine funext fun a => Fin.ext ?_
  match a with
  | ⟨0, _⟩ => show win0_2.index t (0 : Fin 2) * 768 + 1 * e.val = e.val; rw [e0]; omega
  | ⟨1, _⟩ => show win0_2.index t (1 : Fin 2) * 256 + 1 * k.val = k.val; rw [e1]; omega

theorem blk3_apply (c : Dev nD) (t : Fin cfg0.N) (u : Fin 1) (k : Fin 256) :
    (iblk m c 3 t : FVec Ideal S1x256 .f32) (ix2 u k) = m ((c : Thread nD τ).loc main_arg3) (ix1 k) := by
  obtain ⟨-, -, -, -, -, -, e0, e1, -⟩ := idx_in t
  unfold iblk
  rw [View.read_apply]
  show (V m c main_v4 : S1x256.Idx → EReal) _ = _
  rw [V_v4]
  refine Eq.trans (congrArg _ (?_ : _ = ix2 u k)) (shapeCast_a_1a_apply _ _ u k)
  refine funext fun a => Fin.ext ?_
  match a with
  | ⟨0, _⟩ => show win0_3.index t (0 : Fin 2) * 1 + 1 * u.val = u.val; rw [e0]; omega
  | ⟨1, _⟩ => show win0_3.index t (1 : Fin 2) * 256 + 1 * k.val = k.val; rw [e1]; omega

theorem blk4_apply (c : Dev nD) (t : Fin cfg0.N) (k : Fin 256) (d : Fin 256) :
    (iblk m c 4 t : FVec Ideal S256x256 .bf16) (ix2 k d) = m ((c : Thread nD τ).loc main_arg4) (ix2 d k) := by
  obtain ⟨-, -, -, -, -, -, -, -, e0, e1, -⟩ := idx_in t
  unfold iblk
  rw [View.read_apply]
  show (V m c main_v3 : S256x256.Idx → EReal) _ = _
  rw [V_v3]
  refine Eq.trans (congrArg _ (?_ : _ = ix2 k d)) (transpose_ix2_apply _ _ k d)
  refine funext fun a => Fin.ext ?_
  match a with
  | ⟨0, _⟩ => show win0_4.index t (0 : Fin 2) * 256 + 1 * k.val = k.val; rw [e0]; omega
  | ⟨1, _⟩ => show win0_4.index t (1 : Fin 2) * 256 + 1 * d.val = d.val; rw [e1]; omega

theorem blk5_apply (c : Dev nD) (t : Fin cfg0.N) (u : Fin 1) (d : Fin 256) :
    (iblk m c 5 t : FVec Ideal S1x256 .f32) (ix2 u d) = m ((c : Thread nD τ).loc main_arg5) (ix1 d) := by
  obtain ⟨-, -, -, -, -, -, -, -, -, -, e0, e1⟩ := idx_in t
  unfold iblk
  rw [View.read_apply]
  show (V m c main_v5 : S1x256.Idx → EReal) _ = _
  rw [V_v5]
  refine Eq.trans (congrArg _ (?_ : _ = ix2 u d)) (shapeCast_a_1a_apply _ _ u d)
  refine funext fun a => Fin.ext ?_
  match a with
  | ⟨0, _⟩ => show win0_5.index t (0 : Fin 2) * 1 + 1 * u.val = u.val; rw [e0]; omega
  | ⟨1, _⟩ => show win0_5.index t (1 : Fin 2) * 256 + 1 * d.val = d.val; rw [e1]; omega

/-- The argument arrays of device `c`, named. -/
abbrev aX (c : Dev nD) : Cert.Pool.Arr ⟨2, ![65536, 768]⟩ := m ((c : Thread nD τ).loc main_arg0)
abbrev aY (c : Dev nD) : Cert.Pool.Arr ⟨2, ![65536, 64]⟩ := m ((c : Thread nD τ).loc main_arg1)
abbrev aW1 (c : Dev nD) : Cert.Pool.Arr ⟨2, ![256, 768]⟩ := m ((c : Thread nD τ).loc main_arg2)
abbrev aB1 (c : Dev nD) : Cert.Pool.Arr ⟨1, ![256]⟩ := m ((c : Thread nD τ).loc main_arg3)
abbrev aW2 (c : Dev nD) : Cert.Pool.Arr ⟨2, ![256, 256]⟩ := m ((c : Thread nD τ).loc main_arg4)
abbrev aB2 (c : Dev nD) : Cert.Pool.Arr ⟨1, ![256]⟩ := m ((c : Thread nD τ).loc main_arg5)

/-- The hidden features on device `c`. -/
abbrev aH (c : Dev nD) : Fin 65536 → Fin 256 → EReal :=
  Cert.Pool.hid (aX m c) (aW1 m c) (aB1 m c) (aW2 m c) (aB2 m c)

/-- The tile's hidden features are the hidden features of its rows. -/
theorem tileH_eq (c : Dev nD) (t : Fin cfg0.N) (r : Fin 2048) (d : Fin 256) :
    tileH m c t r d = aH m c (rowOf t r) d := by
  unfold tileH t2 t1
  show _ = Cert.Pool.hid (aX m c) (aW1 m c) (aB1 m c) (aW2 m c) (aB2 m c) (rowOf t r) d
  unfold Cert.Pool.hid Cert.Pool.hid1
  simp only [blk0_apply, blk2_apply, blk3_apply, blk4_apply, blk5_apply]

/-- The tile's weights are the weights of its rows. -/
theorem tileY_eq (c : Dev nD) (t : Fin cfg0.N) (cc : Fin 64) (r : Fin 2048) :
    tileY m c t cc r = aY m c (ix2 (rowOf t r) cc) := by
  unfold tileY
  exact blk1_apply m c t cc r

end Cert.KernelIdeal.Pool

end
-- ==== Proof.Regroup.lean ====
/-
  Regrouping the sums over the 65536 rows.

  The rows are visited as 2 halves of 16 tiles of 2048 rows: row `2048·(16·a + s) + r` with `a < 2`,
  `s < 16`, `r < 2048`.  Since `65536 = 2·16·2048`, a sum over all rows is the sum over the halves of
  the sum over the tiles of the sum over the rows of a tile.  This holds in any commutative additive
  monoid, so in particular over the extended reals with no finiteness assumption.  Applied to the three
  pooled sums, it writes each as a double sum of per-tile increments.
-/
import proofs.«173076_j45148696215988_2_alg».proof.Proof.Spec
import proofs.«173076_j45148696215988_2_alg».proof.Proof.LibSumBlocks

noncomputable section

namespace Cert.Pool

open Idealize.ShloMosaic Idealize.ShloMosaic.ValueIdx

/-- A sum over `A·S·R` consecutive naturals, as `A` groups of `S` blocks of `R`. -/
theorem sum_range_three {β : Type*} [AddCommMonoid β] (g : ℕ → β) (A S R : ℕ) :
    ∑ x ∈ Finset.range (A * S * R), g x
      = ∑ a ∈ Finset.range A, ∑ s ∈ Finset.range S, ∑ r ∈ Finset.range R, g ((a * S + s) * R + r) := by
  rw [Cert.LibSumBlocks.sum_range_blocks g R (A * S),
    Cert.LibSumBlocks.sum_range_blocks (fun j => ∑ r ∈ Finset.range R, g (j * R + r)) S A]

/-- The same over the index types. -/
theorem sum_fin_three {β : Type*} [AddCommMonoid β] (g : ℕ → β) (A S R N : ℕ) (hN : N = A * S * R) :
    ∑ x : Fin N, g x.val
      = ∑ a : Fin A, ∑ s : Fin S, ∑ r : Fin R, g (R * (S * a.val + s.val) + r.val) := by
  subst hN
  rw [← Finset.sum_range g, sum_range_three,
    Finset.sum_range (fun a => ∑ s ∈ Finset.range S, ∑ r ∈ Finset.range R, g ((a * S + s) * R + r))]
  refine Finset.sum_congr rfl (fun a _ => ?_)
  rw [Finset.sum_range (fun s => ∑ r ∈ Finset.range R, g ((a.val * S + s) * R + r))]
  refine Finset.sum_congr rfl (fun s _ => ?_)
  rw [Finset.sum_range (fun r => g ((a.val * S + s.val) * R + r))]
  refine Finset.sum_congr rfl (fun r _ => ?_)
  congr 1
  ring

/-- The 65536 rows as 2 halves × 16 tiles × 2048 rows. -/
theorem sum_rows_regroup {β : Type*} [AddCommMonoid β] (g : ℕ → β) :
    ∑ x : Fin 65536, g x.val
      = ∑ a : Fin 2, ∑ s : Fin 16, ∑ r : Fin 2048, g (2048 * (16 * a.val + s.val) + r.val) :=
  sum_fin_three g 2 16 2048 65536 (by norm_num)

/-- The same for a function of the row index itself. -/
theorem sum_rows_regroup_fin {β : Type*} [AddCommMonoid β] (f : Fin 65536 → β) :
    ∑ x : Fin 65536, f x
      = ∑ a : Fin 2, ∑ s : Fin 16, ∑ r : Fin 2048,
          f ⟨2048 * (16 * a.val + s.val) + r.val, by
            have := a.isLt; have := s.isLt; have := r.isLt; omega⟩ := by
  refine (Finset.sum_congr rfl (fun x _ => ?_)).trans
    ((sum_rows_regroup (fun n : ℕ => if h : n < 65536 then f ⟨n, h⟩ else 0)).trans ?_)
  · rw [dif_pos x.isLt]
  · refine Finset.sum_congr rfl (fun a _ => Finset.sum_congr rfl (fun s _ => Finset.sum_congr rfl (fun r _ => ?_)))
    rw [dif_pos]

/-- The pooled features, tile by tile. -/
theorem poolPos_regroup (y : Arr ⟨2, ![65536, 64]⟩) (H : Fin 65536 → Fin 256 → EReal)
    (I : ℕ → Fin 64 → Fin 256 → EReal)
    (hI : ∀ (n : ℕ) (hn : n < 32) (cc : Fin 64) (d : Fin 256), I n cc d
      = ∑ r : Fin 2048, y (ix2 (⟨2048 * n + r.val, by have := r.isLt; omega⟩ : Fin 65536) cc)
          * H (⟨2048 * n + r.val, by have := r.isLt; omega⟩ : Fin 65536) d)
    (cc : Fin 64) (d : Fin 256) :
    poolPos y H cc d = ∑ a : Fin 2, ∑ s : Fin 16, I (16 * a.val + s.val) cc d := by
  unfold poolPos
  rw [sum_rows_regroup_fin (fun x => y (ix2 x cc) * H x d)]
  refine Finset.sum_congr rfl (fun a _ => Finset.sum_congr rfl (fun s _ => ?_))
  exact (hI (16 * a.val + s.val) (by have := a.isLt; have := s.isLt; omega) cc d).symm

/-- The column sums of the features, tile by tile. -/
theorem colSum_regroup (H : Fin 65536 → Fin 256 → EReal) (I : ℕ → Fin 256 → EReal)
    (hI : ∀ (n : ℕ) (hn : n < 32) (d : Fin 256), I n d
      = ∑ r : Fin 2048, H (⟨2048 * n + r.val, by have := r.isLt; omega⟩ : Fin 65536) d)
    (d : Fin 256) :
    colSum H d = ∑ a : Fin 2, ∑ s : Fin 16, I (16 * a.val + s.val) d := by
  unfold colSum
  rw [sum_rows_regroup_fin (fun x => H x d)]
  refine Finset.sum_congr rfl (fun a _ => Finset.sum_congr rfl (fun s _ => ?_))
  exact (hI (16 * a.val + s.val) (by have := a.isLt; have := s.isLt; omega) d).symm

/-- The total weights, tile by tile. -/
theorem mass_regroup (y : Arr ⟨2, ![65536, 64]⟩) (I : ℕ → Fin 64 → EReal)
    (hI : ∀ (n : ℕ) (hn : n < 32) (cc : Fin 64), I n cc
      = ∑ r : Fin 2048, y (ix2 (⟨2048 * n + r.val, by have := r.isLt; omega⟩ : Fin 65536) cc))
    (cc : Fin 64) :
    mass y cc = ∑ a : Fin 2, ∑ s : Fin 16, I (16 * a.val + s.val) cc := by
  unfold mass
  rw [sum_rows_regroup_fin (fun x => y (ix2 x cc))]
  refine Finset.sum_congr rfl (fun a _ => Finset.sum_congr rfl (fun s _ => ?_))
  exact (hI (16 * a.val + s.val) (by have := a.isLt; have := s.isLt; omega) cc).symm

end Cert.Pool

end
-- ==== Proof.Bridge.lean ====
/-
  The region's three result arrays, summed over their two slots, are the three pooled sums over all 65536 rows:
  the rows are visited as 2 halves of 16 tiles of 2048 rows, row number `2048·(16·a + s) + r`.
-/
import proofs.«173076_j45148696215988_2_alg».proof.Proof.Final
import proofs.«173076_j45148696215988_2_alg».proof.Proof.Blocks
import proofs.«173076_j45148696215988_2_alg».proof.Proof.Regroup

noncomputable section

open Idealize.ShloMosaic Idealize.ShloMosaic.TcCoe Idealize.ShloMosaic.ValueIdx Idealize.SL.Sem

namespace Cert.KernelIdeal.Pool

open Cert.KernelIdeal Cert.KernelIdeal.Gen

variable (m : (ℓ : Loc nD τ sig) → Buf (Elt Ideal) ℓ)

theorem inc6_eq (c : Dev nD) (n : ℕ) (hn : n < 32) (cc : Fin 64) (d : Fin 256) :
    inc6 m c n cc d = ∑ r : Fin 2048, aY m c (ix2 (⟨2048 * n + r.val, by have := r.isLt; omega⟩ : Fin 65536) cc)
      * aH m c (⟨2048 * n + r.val, by have := r.isLt; omega⟩ : Fin 65536) d := by
  have h : n < cfg0.N := lt_of_lt_of_eq hn (show cfg0.N = 32 from N_0).symm
  unfold inc6
  rw [dif_pos h]
  refine Finset.sum_congr rfl fun r _ => ?_
  rw [tileY_eq, tileH_eq]
  rfl

theorem inc7_eq (c : Dev nD) (n : ℕ) (hn : n < 32) (d : Fin 256) :
    inc7 m c n d = ∑ r : Fin 2048, aH m c (⟨2048 * n + r.val, by have := r.isLt; omega⟩ : Fin 65536) d := by
  have h : n < cfg0.N := lt_of_lt_of_eq hn (show cfg0.N = 32 from N_0).symm
  unfold inc7
  rw [dif_pos h]
  refine Finset.sum_congr rfl fun r _ => ?_
  rw [tileH_eq]
  rfl

theorem inc8_eq (c : Dev nD) (n : ℕ) (hn : n < 32) (cc : Fin 64) :
    inc8 m c n cc = ∑ r : Fin 2048, aY m c (ix2 (⟨2048 * n + r.val, by have := r.isLt; omega⟩ : Fin 65536) cc) := by
  have h : n < cfg0.N := lt_of_lt_of_eq hn (show cfg0.N = 32 from N_0).symm
  unfold inc8
  rw [dif_pos h]
  refine Finset.sum_congr rfl fun r _ => ?_
  rw [tileY_eq]
  rfl

/-- The two slots of result 0 sum to the pool of the features with the weights. -/
theorem sum6 (c : Dev nD) (cc : Fin 64) (d : Fin 256) :
    ∑ a : Fin 2, g6 m c a cc d = Cert.Pool.poolPos (aY m c) (aH m c) cc d := by
  rw [Cert.Pool.poolPos_regroup (aY m c) (aH m c) (inc6 m c) (fun n hn cc d => inc6_eq m c n hn cc d) cc d]
  rfl

/-- The two slots of result 1 sum to the column sums of the features. -/
theorem sum7 (c : Dev nD) (w : Fin 1) (d : Fin 256) :
    ∑ a : Fin 2, g7 m c a w d = Cert.Pool.colSum (aH m c) d := by
  rw [Cert.Pool.colSum_regroup (aH m c) (inc7 m c) (fun n hn d => inc7_eq m c n hn d) d]
  rfl

/-- The two slots of result 2 sum to the total weights. -/
theorem sum8 (c : Dev nD) (cc : Fin 64) (w : Fin 1) :
    ∑ a : Fin 2, g8 m c a cc w = Cert.Pool.mass (aY m c) cc := by
  rw [Cert.Pool.mass_regroup (aY m c) (inc8 m c) (fun n hn cc => inc8_eq m c n hn cc) cc]
  rfl

end Cert.KernelIdeal.Pool

end
-- ==== Proof.Tail.lean ====
/-
  The last layers, shared by both programs.

  From the two normalised pools `rp` and `rn` (64 label columns × 256 features each) the programs form
  `r = [rp | rn]` (64 × 512), a hidden layer `h = max (r · a6ᵀ + a7) 0` (64 × 256) and the parameter rows
  `p = h · a8ᵀ + a9` (64 × 1537).  The first 768 entries of a row are a weight update, entry 768 a bias update and
  the last 768 entries a gate:
    `headW = a10 + 1 / (1 + exp (−p[·, 769 …])) · p[·, 0 … 767]`   and   `headB = a11 + p[·, 768]`.
  Both are written once here, as functions of the pools and of the six (resp. five) parameter arrays, so that each
  program's result is this function of that program's pools.
-/
import proofs.«173076_j45148696215988_2_alg».proof.ReferenceIdeal
import Idealize.ShloMosaic.PureOps.Ideal

noncomputable section

namespace Cert.Pool

open Cert.ReferenceIdeal Cert.ReferenceIdeal.Facts₀ Idealize.ShloMosaic

variable [Cert.ReferenceIdeal.Facts]

/-- The gated weight rows: `a10 + sigmoid (p[·, 769 …]) · p[·, 0 … 767]` with `p = max ([rp | rn] · a6ᵀ + a7) 0 · a8ᵀ + a9`. -/
def headW (rp rn : FVec Ideal S64x256 .f32) (a6 : FVec Ideal S256x512 .f32) (a7 : FVec Ideal S256 .f32)
    (a8 : FVec Ideal S1537x256 .f32) (a9 : FVec Ideal S1537 .f32) (a10 : FVec Ideal S768 .f32) :
    FVec Ideal S64x768 .f32 :=
  addf (broadcastInDim S64x768 ![0, 1] bcast_S1x768_S64x768_0_1 (broadcastInDim S1x768 ![1] bcast_S768_S1x768_1 a10)) (mulf (Host.divf (F := Ideal) (broadcastInDim S64x768 ![] bcast_S_S64x768 (constant (F := Ideal) S_ .f32 0x3F800000#32)) (addf (broadcastInDim S64x768 ![] bcast_S_S64x768 (constant (F := Ideal) S_ .f32 0x3F800000#32)) (Host.exp (F := Ideal) (Host.negf (F := Ideal) (extractStridedSlice S64x768 ![0, 769] (addf (Host.dotGeneral (F := Ideal) dot_S64x256_S256x1537_S64x1537_1_0_0_1_n_n none (maximumf (addf (Host.dotGeneral (F := Ideal) dot_S64x512_S512x256_S64x256_1_0_0_1_n_n none (concatenate S64x512 1 [⟨S64x256, rp⟩, ⟨S64x256, rn⟩] concatenates_S64x256_S64x256_S64x512_d1) (transpose S512x256 [1, 0] a6 transposes_S256x512_S512x256_1_0)) (broadcastInDim S64x256 ![0, 1] bcast_S1x256_S64x256_0_1 (broadcastInDim S1x256 ![1] bcast_S256_S1x256_1 a7))) (broadcastInDim S64x256 ![] bcast_S_S64x256 (constant (F := Ideal) S_ .f32 0x00000000#32))) (transpose S256x1537 [1, 0] a8 transposes_S1537x256_S256x1537_1_0)) (broadcastInDim S64x1537 ![0, 1] bcast_S1x1537_S64x1537_0_1 (broadcastInDim S1x1537 ![1] bcast_S1537_S1x1537_1 a9))) slices_S64x1537_S64x768_0_769))))) (extractStridedSlice S64x768 ![0, 0] (addf (Host.dotGeneral (F := Ideal) dot_S64x256_S256x1537_S64x1537_1_0_0_1_n_n none (maximumf (addf (Host.dotGeneral (F := Ideal) dot_S64x512_S512x256_S64x256_1_0_0_1_n_n none (concatenate S64x512 1 [⟨S64x256, rp⟩, ⟨S64x256, rn⟩] concatenates_S64x256_S64x256_S64x512_d1) (transpose S512x256 [1, 0] a6 transposes_S256x512_S512x256_1_0)) (broadcastInDim S64x256 ![0, 1] bcast_S1x256_S64x256_0_1 (broadcastInDim S1x256 ![1] bcast_S256_S1x256_1 a7))) (broadcastInDim S64x256 ![] bcast_S_S64x256 (constant (F := Ideal) S_ .f32 0x00000000#32))) (transpose S256x1537 [1, 0] a8 transposes_S1537x256_S256x1537_1_0)) (broadcastInDim S64x1537 ![0, 1] bcast_S1x1537_S64x1537_0_1 (broadcastInDim S1x1537 ![1] bcast_S1537_S1x1537_1 a9))) slices_S64x1537_S64x768_0_0))

/-- The bias entries: `a11 + p[·, 768]` with the same `p`. -/
def headB (rp rn : FVec Ideal S64x256 .f32) (a6 : FVec Ideal S256x512 .f32) (a7 : FVec Ideal S256 .f32)
    (a8 : FVec Ideal S1537x256 .f32) (a9 : FVec Ideal S1537 .f32) (a11 : FVec Ideal S1 .f32) :
    FVec Ideal S64 .f32 :=
  addf (broadcastInDim S64 ![] bcast_S_S64 (shapeCast _ a11 shapeCasts_S1_S_)) (shapeCast _ (extractStridedSlice S64x1 ![0, 768] (addf (Host.dotGeneral (F := Ideal) dot_S64x256_S256x1537_S64x1537_1_0_0_1_n_n none (maximumf (addf (Host.dotGeneral (F := Ideal) dot_S64x512_S512x256_S64x256_1_0_0_1_n_n none (concatenate S64x512 1 [⟨S64x256, rp⟩, ⟨S64x256, rn⟩] concatenates_S64x256_S64x256_S64x512_d1) (transpose S512x256 [1, 0] a6 transposes_S256x512_S512x256_1_0)) (broadcastInDim S64x256 ![0, 1] bcast_S1x256_S64x256_0_1 (broadcastInDim S1x256 ![1] bcast_S256_S1x256_1 a7))) (broadcastInDim S64x256 ![] bcast_S_S64x256 (constant (F := Ideal) S_ .f32 0x00000000#32))) (transpose S256x1537 [1, 0] a8 transposes_S1537x256_S256x1537_1_0)) (broadcastInDim S64x1537 ![0, 1] bcast_S1x1537_S64x1537_0_1 (broadcastInDim S1x1537 ![1] bcast_S1537_S1x1537_1 a9))) slices_S64x1537_S64x1_0_768) shapeCasts_S64x1_S64)

end Cert.Pool

end
-- ==== Proof.KTail.lean ====
/-
  The last part of the pooling program, after its block-wise pass.

  The block-wise pass leaves three arrays of partial sums, one slice per half of the rows:
  `A6[a, c, d] = Σ_{s in half a} y[s,c]·H[s,d]`, `A7[a, 0, d] = Σ_{s in half a} H[s,d]` and
  `A8[a, c, 0] = Σ_{s in half a} y[s,c]`.  The program adds the two halves, forms
    `kpos[c,d] = (Σ_a A6[a,c,d]) / max (Σ_a A8[a,c,0], ε)`   and
    `kneg[c,d] = (Σ_a A7[a,0,d] − Σ_a A6[a,c,d]) / max (65536 − Σ_a A8[a,c,0], ε)`,
  and then applies to these two pools the same last layers as the other program (`headW`, `headB`).
-/
import proofs.«173076_j45148696215988_2_alg».proof.Proof.Tail
import proofs.«173076_j45148696215988_2_alg».proof.Proof.Spec
import proofs.«173076_j45148696215988_2_alg».proof.Proof.Gen.KernelIdeal.Launch
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pool

open Cert.KernelIdeal Cert.KernelIdeal.Gen Idealize.ShloMosaic Idealize.ShloMosaic.ValueIdx
open Idealize.ShloMosaic.TcCoe Idealize.SL.Sem Idealize.ShloMosaic.StableHlo

/-- The first pool from the partial sums: the two halves added, divided by the clamped total weight. -/
def kpos (A6 : FVec Ideal S2x64x256 .f32) (A8 : FVec Ideal S2x64x1 .f32) : FVec Ideal S64x256 .f32 :=
  Host.divf (F := Ideal) (Host.reduceAdd (F := Ideal) A6 (constant (F := Ideal) S_ .f32 0x00000000#32) reducesTo_S2x64x256_S64x256_d0 h_S_) (broadcastInDim S64x256 ![0, 1] bcast_S64x1_S64x256_0_1 (broadcastInDim S64x1 ![0] bcast_S64_S64x1_0 (maximumf (shapeCast _ (Host.reduceAdd (F := Ideal) A8 (constant (F := Ideal) S_ .f32 0x00000000#32) reducesTo_S2x64x1_S64x1_d0 h_S_) shapeCasts_S64x1_S64) (broadcastInDim S64 ![] bcast_S_S64 (constant (F := Ideal) S_ .f32 0x358637BD#32)))))

/-- The complementary pool from the partial sums: column sums minus the first pool's numerator, divided by the
    clamped complementary weight `65536 − Σ y`. -/
def kneg (A6 : FVec Ideal S2x64x256 .f32) (A7 : FVec Ideal S2x1x256 .f32) (A8 : FVec Ideal S2x64x1 .f32) :
    FVec Ideal S64x256 .f32 :=
  Host.divf (F := Ideal) (subf (broadcastInDim S64x256 ![0, 1] bcast_S1x256_S64x256_0_1 (Host.reduceAdd (F := Ideal) A7 (constant (F := Ideal) S_ .f32 0x00000000#32) reducesTo_S2x1x256_S1x256_d0 h_S_)) (Host.reduceAdd (F := Ideal) A6 (constant (F := Ideal) S_ .f32 0x00000000#32) reducesTo_S2x64x256_S64x256_d0 h_S_)) (broadcastInDim S64x256 ![0, 1] bcast_S64x1_S64x256_0_1 (broadcastInDim S64x1 ![0] bcast_S64_S64x1_0 (maximumf (subf (broadcastInDim S64 ![] bcast_S_S64 (constant (F := Ideal) S_ .f32 0x47800000#32)) (shapeCast _ (Host.reduceAdd (F := Ideal) A8 (constant (F := Ideal) S_ .f32 0x00000000#32) reducesTo_S2x64x1_S64x1_d0 h_S_) shapeCasts_S64x1_S64)) (broadcastInDim S64 ![] bcast_S_S64 (constant (F := Ideal) S_ .f32 0x358637BD#32)))))

section Tail
/- The shared last layers are stated over the side conditions of the other program's text (relations between literal
   shapes); they are taken here as a hypothesis, which every use discharges by instance. -/
variable [Cert.ReferenceIdeal.Facts]

/-- After the operations that follow the block-wise pass, from any contents `W`, the first result is the shared last
    layers applied to `kpos` and `kneg` of the three arrays of partial sums. -/
theorem tailW_of (W : Valuation τ sig (Elt Ideal)) :
    StableHlo.after (hostOps1 ++ hostOps1_1 ++ hostOps1_2) W (Proc.devRef .tc main_v51)
      = Cert.Pool.headW (kpos (W (Proc.devRef .tc main_v7_0)) (W (Proc.devRef .tc main_v7_2)))
        (kneg (W (Proc.devRef .tc main_v7_0)) (W (Proc.devRef .tc main_v7_1)) (W (Proc.devRef .tc main_v7_2)))
        (W (Proc.devRef .tc main_arg6)) (W (Proc.devRef .tc main_arg7)) (W (Proc.devRef .tc main_arg8)) (W (Proc.devRef .tc main_arg9)) (W (Proc.devRef .tc main_arg10)) := by
  simp only [hostOps1, hostOps1_1, hostOps1_2, List.cons_append, List.nil_append]
  after_results_simp
  rfl

/-- The same for the second result. -/
theorem tailB_of (W : Valuation τ sig (Elt Ideal)) :
    StableHlo.after (hostOps1 ++ hostOps1_1 ++ hostOps1_2) W (Proc.devRef .tc main_v54)
      = Cert.Pool.headB (kpos (W (Proc.devRef .tc main_v7_0)) (W (Proc.devRef .tc main_v7_2)))
        (kneg (W (Proc.devRef .tc main_v7_0)) (W (Proc.devRef .tc main_v7_1)) (W (Proc.devRef .tc main_v7_2)))
        (W (Proc.devRef .tc main_arg6)) (W (Proc.devRef .tc main_arg7)) (W (Proc.devRef .tc main_arg8)) (W (Proc.devRef .tc main_arg9)) (W (Proc.devRef .tc main_arg11)) := by
  simp only [hostOps1, hostOps1_1, hostOps1_2, List.cons_append, List.nil_append]
  after_results_simp
  rfl

/-- The three stretches of operations joined as one list, in the other bracketing. -/
private theorem flatten_eq :
    List.flatten [(hostOps1 : List (HloOp τ sig (Elt Ideal))), hostOps1_1, hostOps1_2] = hostOps1 ++ hostOps1_1 ++ hostOps1_2 := by
  simp only [List.flatten_cons, List.flatten_nil, List.append_nil, List.append_assoc]

/-- `tailW_of` over the list of the three stretches flattened. -/
theorem tailW_flat (W : Valuation τ sig (Elt Ideal)) :
    StableHlo.after (List.flatten [hostOps1, hostOps1_1, hostOps1_2]) W (Proc.devRef .tc main_v51)
      = Cert.Pool.headW (kpos (W (Proc.devRef .tc main_v7_0)) (W (Proc.devRef .tc main_v7_2)))
        (kneg (W (Proc.devRef .tc main_v7_0)) (W (Proc.devRef .tc main_v7_1)) (W (Proc.devRef .tc main_v7_2)))
        (W (Proc.devRef .tc main_arg6)) (W (Proc.devRef .tc main_arg7)) (W (Proc.devRef .tc main_arg8)) (W (Proc.devRef .tc main_arg9)) (W (Proc.devRef .tc main_arg10)) := by
  rw [flatten_eq]; exact tailW_of W

/-- `tailB_of` over the list of the three stretches flattened. -/
theorem tailB_flat (W : Valuation τ sig (Elt Ideal)) :
    StableHlo.after (List.flatten [hostOps1, hostOps1_1, hostOps1_2]) W (Proc.devRef .tc main_v54)
      = Cert.Pool.headB (kpos (W (Proc.devRef .tc main_v7_0)) (W (Proc.devRef .tc main_v7_2)))
        (kneg (W (Proc.devRef .tc main_v7_0)) (W (Proc.devRef .tc main_v7_1)) (W (Proc.devRef .tc main_v7_2)))
        (W (Proc.devRef .tc main_arg6)) (W (Proc.devRef .tc main_arg7)) (W (Proc.devRef .tc main_arg8)) (W (Proc.devRef .tc main_arg9)) (W (Proc.devRef .tc main_arg11)) := by
  rw [flatten_eq]; exact tailB_of W

end Tail

/-! ## The two pools read at an index -/

/-- The zero word, read at the one index of the scalar shape, is zero. -/
private theorem zero_first : (constant (F := Ideal) S_ .f32 0x00000000#32) (Shape.Idx.first h_S_) = 0 := Ideal.ofBits_zero_f32

/-- The two halves of `A6` added. -/
theorem sum6_apply (A6 : FVec Ideal S2x64x256 .f32) (cc : Fin 64) (d : Fin 256) :
    (Host.reduceAdd (F := Ideal) A6 (constant (F := Ideal) S_ .f32 0x00000000#32) reducesTo_S2x64x256_S64x256_d0 h_S_) (ix2 cc d) = ∑ a : Fin 2, A6 (ix3 a cc d) := by
  simp only [Host.reduceAdd, Ideal.hostReduceAdd_def]
  rw [Ideal.hostReduceAdd_single reducesTo_S2x64x256_S64x256_d0 (by decide)]
  refine (congrArg (· + _) zero_first).trans ((zero_add _).trans (Finset.sum_congr rfl fun k _ => ?_))
  exact congrArg A6 (funext fun a => Fin.ext (by match a with | ⟨0, _⟩ => rfl | ⟨1, _⟩ => rfl | ⟨2, _⟩ => rfl))

/-- The two halves of `A7` added. -/
theorem sum7_apply (A7 : FVec Ideal S2x1x256 .f32) (d : Fin 256) :
    (Host.reduceAdd (F := Ideal) A7 (constant (F := Ideal) S_ .f32 0x00000000#32) reducesTo_S2x1x256_S1x256_d0 h_S_) (ix2 (0 : Fin 1) d) = ∑ a : Fin 2, A7 (ix3 a (0 : Fin 1) d) := by
  simp only [Host.reduceAdd, Ideal.hostReduceAdd_def]
  rw [Ideal.hostReduceAdd_single reducesTo_S2x1x256_S1x256_d0 (by decide)]
  refine (congrArg (· + _) zero_first).trans ((zero_add _).trans (Finset.sum_congr rfl fun k _ => ?_))
  exact congrArg A7 (funext fun a => Fin.ext (by match a with | ⟨0, _⟩ => rfl | ⟨1, _⟩ => rfl | ⟨2, _⟩ => rfl))

/-- The two halves of `A8` added. -/
theorem sum8_apply (A8 : FVec Ideal S2x64x1 .f32) (cc : Fin 64) :
    (Host.reduceAdd (F := Ideal) A8 (constant (F := Ideal) S_ .f32 0x00000000#32) reducesTo_S2x64x1_S64x1_d0 h_S_) (ix2 cc (0 : Fin 1)) = ∑ a : Fin 2, A8 (ix3 a cc (0 : Fin 1)) := by
  simp only [Host.reduceAdd, Ideal.hostReduceAdd_def]
  rw [Ideal.hostReduceAdd_single reducesTo_S2x64x1_S64x1_d0 (by decide)]
  refine (congrArg (· + _) zero_first).trans ((zero_add _).trans (Finset.sum_congr rfl fun k _ => ?_))
  exact congrArg A8 (funext fun a => Fin.ext (by match a with | ⟨0, _⟩ => rfl | ⟨1, _⟩ => rfl | ⟨2, _⟩ => rfl))

/-- The total weight of a column as a vector over the 64 columns: the 64×1 column of sums with its unit axis dropped. -/
theorem mass8_apply (A8 : FVec Ideal S2x64x1 .f32) (cc : Fin 64) :
    (shapeCast _ (Host.reduceAdd (F := Ideal) A8 (constant (F := Ideal) S_ .f32 0x00000000#32) reducesTo_S2x64x1_S64x1_d0 h_S_) shapeCasts_S64x1_S64) (ix1 cc) = ∑ a : Fin 2, A8 (ix3 a cc (0 : Fin 1)) := by
  rw [shapeCast_apply _ shapeCasts_S64x1_S64 (ix1 cc) (ix2 cc (0 : Fin 1)) (by
    rw [Shape.rowMajor_val_two, Shape.rowMajor_val_one]
    show cc.val * 1 + 0 = cc.val
    omega)]
  exact sum8_apply A8 cc

/-- A vector over the 64 columns spread over the 256 features reads its column's entry. -/
theorem col_apply (z : FVec Ideal S64 .f32) (cc : Fin 64) (d : Fin 256) :
    (broadcastInDim S64x256 ![0, 1] bcast_S64x1_S64x256_0_1 (broadcastInDim S64x1 ![0] bcast_S64_S64x1_0 z)) (ix2 cc d) = z (ix1 cc) :=
  (broadcastInDim_apply _ bcast_S64x1_S64x256_0_1 _ (ix2 cc d) (ix2 cc (0 : Fin 1)) (fun a => match a with
    | ⟨0, _⟩ => by show cc.val = if (64 : Nat) = 1 then 0 else cc.val; rw [if_neg (by decide)]
    | ⟨1, _⟩ => by show 0 = if (1 : Nat) = 1 then 0 else d.val; rw [if_pos rfl])).trans
  (broadcastInDim_apply _ bcast_S64_S64x1_0 z (ix2 cc (0 : Fin 1)) (ix1 cc) (fun a => match a with
    | ⟨0, _⟩ => by show cc.val = if (64 : Nat) = 1 then 0 else cc.val; rw [if_neg (by decide)]))

/-- A row of 256 features spread over the 64 columns reads its feature's entry. -/
theorem row_apply (z : FVec Ideal S1x256 .f32) (cc : Fin 64) (d : Fin 256) :
    (broadcastInDim S64x256 ![0, 1] bcast_S1x256_S64x256_0_1 z) (ix2 cc d) = z (ix2 (0 : Fin 1) d) :=
  broadcastInDim_apply _ bcast_S1x256_S64x256_0_1 z (ix2 cc d) (ix2 (0 : Fin 1) d) (fun a => match a with
    | ⟨0, _⟩ => by show 0 = if (1 : Nat) = 1 then 0 else cc.val; rw [if_pos rfl]
    | ⟨1, _⟩ => by show d.val = if (256 : Nat) = 1 then 0 else d.val; rw [if_neg (by decide)])

/-- A constant spread over the 64 columns reads the extended real its word encodes. -/
theorem splat_apply (w : BitVec 32) (cc : Fin 64) :
    (broadcastInDim S64 ![] bcast_S_S64 (constant (F := Ideal) S_ .f32 w)) (ix1 cc) = Ideal.ofBits .f32 w :=
  broadcastInDim_apply _ bcast_S_S64 (constant (F := Ideal) S_ .f32 w) (ix1 cc) (fun a => a.elim0) (fun a => a.elim0)

/-- The host's quotient of two arrays reads the quotient of the entries. -/
private theorem hostDivf_apply {s : Shape} (x y : FVec Ideal s .f32) (i : s.Idx) :
    Host.divf (F := Ideal) x y i = Ideal.div (x i) (y i) := rfl

/-- The first pool at column `cc` and feature `d`. -/
theorem kpos_apply (A6 : FVec Ideal S2x64x256 .f32) (A8 : FVec Ideal S2x64x1 .f32) (cc : Fin 64) (d : Fin 256) :
    kpos A6 A8 (ix2 cc d)
      = Ideal.div (∑ a : Fin 2, A6 (ix3 a cc d)) (max (∑ a : Fin 2, A8 (ix3 a cc (0 : Fin 1))) Cert.Pool.epsW) := by
  unfold kpos
  rw [hostDivf_apply, sum6_apply, col_apply, maximumf_apply, mass8_apply, splat_apply]

/-- The complementary pool at column `cc` and feature `d`. -/
theorem kneg_apply (A6 : FVec Ideal S2x64x256 .f32) (A7 : FVec Ideal S2x1x256 .f32) (A8 : FVec Ideal S2x64x1 .f32)
    (cc : Fin 64) (d : Fin 256) :
    kneg A6 A7 A8 (ix2 cc d)
      = Ideal.div ((∑ a : Fin 2, A7 (ix3 a (0 : Fin 1) d)) - ∑ a : Fin 2, A6 (ix3 a cc d))
          (max (Cert.Pool.rowsW - ∑ a : Fin 2, A8 (ix3 a cc (0 : Fin 1))) Cert.Pool.epsW) := by
  unfold kneg
  rw [hostDivf_apply, subf_apply, row_apply, sum7_apply, sum6_apply, col_apply, maximumf_apply, subf_apply,
    splat_apply, mass8_apply, splat_apply]

end Cert.KernelIdeal.Pool

end
-- ==== Proof.KRun.lean ====
/-
  The kernel program's run, read as values: its two results are the shared last layers applied to the normalised
  pools `rPos` and `rNegSub` of the hidden features with the weights.
-/
import proofs.«173076_j45148696215988_2_alg».proof.Proof.Bridge
import proofs.«173076_j45148696215988_2_alg».proof.Proof.KTail
import proofs.«173076_j45148696215988_2_alg».proof.Proof.Gen.KernelIdeal.Frame
import proofs.«173076_j45148696215988_2_alg».proof.Proof.Gen.ReferenceIdeal

noncomputable section

open Idealize.ShloMosaic Idealize.ShloMosaic.TcCoe Idealize.ShloMosaic.ValueIdx Idealize.SL.Sem

namespace Cert.KernelIdeal.Pool

open Cert.KernelIdeal Cert.KernelIdeal.Gen

variable (m : (ℓ : Loc nD τ sig) → Buf (Elt Ideal) ℓ) (ρ : Dev nD → PrngReg)

/-- The first pool the host lines form from the three result arrays is the normalised pool with the weights. -/
theorem kpos_eq (c : Dev nD) : kpos (G6 m c) (G8 m c) = Cert.Pool.rPos (aY m c) (aH m c) := by
  funext i
  obtain ⟨cc, d, rfl⟩ : ∃ (cc : Fin 64) (d : Fin 256), i = ix2 cc d := ⟨i 0, i 1, eq_ix2 i⟩
  refine (kpos_apply _ _ cc d).trans ?_
  show Ideal.div (∑ a : Fin 2, g6 m c a cc d)
    (max (∑ a : Fin 2, g8 m c a cc (0 : Fin 1)) Cert.Pool.epsW) = _
  rw [sum6, sum8]
  rfl

/-- The second is the complementary pool in its subtracting form. -/
theorem kneg_eq (c : Dev nD) : kneg (G6 m c) (G7 m c) (G8 m c) = Cert.Pool.rNegSub (aY m c) (aH m c) := by
  funext i
  obtain ⟨cc, d, rfl⟩ : ∃ (cc : Fin 64) (d : Fin 256), i = ix2 cc d := ⟨i 0, i 1, eq_ix2 i⟩
  refine (kneg_apply _ _ _ cc d).trans ?_
  show Ideal.div ((∑ a : Fin 2, g7 m c a (0 : Fin 1) d) - ∑ a : Fin 2, g6 m c a cc d)
    (max (Cert.Pool.rowsW - ∑ a : Fin 2, g8 m c a cc (0 : Fin 1)) Cert.Pool.epsW) = _
  rw [sum7, sum6, sum8]
  rfl

/-- The first result after the host lines that follow the region. -/
theorem tail51 (c : Dev nD) :
    Pipeline.afterTail₀ cfgs (dats m) 0 (V0 m) [hostOps1, hostOps1_1, hostOps1_2] c main_v51
      = Cert.Pool.headW (Cert.Pool.rPos (aY m c) (aH m c)) (Cert.Pool.rNegSub (aY m c) (aH m c)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have h6 : Pipeline.withArrays (cfgs 0).spec c (V0 m c) (fun w => (dats m 0 c).arrAt w (cfgs 0).N) (Proc.devRef .tc main_v7_0) = G6 m c :=
    (Pipeline.withArrays_arr spec0 launch0.win.arr_inj c (V0 m c) (fun w => (dats m 0 c).arrAt w (cfgs 0).N) 6).trans (final6 m c)
  have h7 : Pipeline.withArrays (cfgs 0).spec c (V0 m c) (fun w => (dats m 0 c).arrAt w (cfgs 0).N) (Proc.devRef .tc main_v7_1) = G7 m c :=
    (Pipeline.withArrays_arr spec0 launch0.win.arr_inj c (V0 m c) (fun w => (dats m 0 c).arrAt w (cfgs 0).N) 7).trans (final7 m c)
  have h8 : Pipeline.withArrays (cfgs 0).spec c (V0 m c) (fun w => (dats m 0 c).arrAt w (cfgs 0).N) (Proc.devRef .tc main_v7_2) = G8 m c :=
    (Pipeline.withArrays_arr spec0 launch0.win.arr_inj c (V0 m c) (fun w => (dats m 0 c).arrAt w (cfgs 0).N) 8).trans (final8 m c)
  have ha6 : Pipeline.withArrays (cfgs 0).spec c (V0 m c) (fun w => (dats m 0 c).arrAt w (cfgs 0).N) (Proc.devRef .tc main_arg6) = m ((c.tc : Thread nD τ).loc main_arg6) :=
    (Pipeline.withArrays_of_ne _ c (V0 m c) _ main_arg6 (by exact (by decide : ∀ w, Pipeline.arrRef spec0 w ≠ main_arg6))).trans (V_main_arg6 m c)
  have ha7 : Pipeline.withArrays (cfgs 0).spec c (V0 m c) (fun w => (dats m 0 c).arrAt w (cfgs 0).N) (Proc.devRef .tc main_arg7) = m ((c.tc : Thread nD τ).loc main_arg7) :=
    (Pipeline.withArrays_of_ne _ c (V0 m c) _ main_arg7 (by exact (by decide : ∀ w, Pipeline.arrRef spec0 w ≠ main_arg7))).trans (V_main_arg7 m c)
  have ha8 : Pipeline.withArrays (cfgs 0).spec c (V0 m c) (fun w => (dats m 0 c).arrAt w (cfgs 0).N) (Proc.devRef .tc main_arg8) = m ((c.tc : Thread nD τ).loc main_arg8) :=
    (Pipeline.withArrays_of_ne _ c (V0 m c) _ main_arg8 (by exact (by decide : ∀ w, Pipeline.arrRef spec0 w ≠ main_arg8))).trans (V_main_arg8 m c)
  have ha9 : Pipeline.withArrays (cfgs 0).spec c (V0 m c) (fun w => (dats m 0 c).arrAt w (cfgs 0).N) (Proc.devRef .tc main_arg9) = m ((c.tc : Thread nD τ).loc main_arg9) :=
    (Pipeline.withArrays_of_ne _ c (V0 m c) _ main_arg9 (by exact (by decide : ∀ w, Pipeline.arrRef spec0 w ≠ main_arg9))).trans (V_main_arg9 m c)
  have ha10 : Pipeline.withArrays (cfgs 0).spec c (V0 m c) (fun w => (dats m 0 c).arrAt w (cfgs 0).N) (Proc.devRef .tc main_arg10) = m ((c.tc : Thread nD τ).loc main_arg10) :=
    (Pipeline.withArrays_of_ne _ c (V0 m c) _ main_arg10 (by exact (by decide : ∀ w, Pipeline.arrRef spec0 w ≠ main_arg10))).trans (V_main_arg10 m c)
  unfold Pipeline.afterTail₀
  refine (tailW_flat _).trans ?_
  rw [h6, h7, h8, ha6, ha7, ha8, ha9, ha10, kpos_eq, kneg_eq]

/-- The second result after the host lines that follow the region. -/
theorem tail54 (c : Dev nD) :
    Pipeline.afterTail₀ cfgs (dats m) 0 (V0 m) [hostOps1, hostOps1_1, hostOps1_2] c main_v54
      = Cert.Pool.headB (Cert.Pool.rPos (aY m c) (aH m c)) (Cert.Pool.rNegSub (aY m c) (aH m c)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) := by
  have h6 : Pipeline.withArrays (cfgs 0).spec c (V0 m c) (fun w => (dats m 0 c).arrAt w (cfgs 0).N) (Proc.devRef .tc main_v7_0) = G6 m c :=
    (Pipeline.withArrays_arr spec0 launch0.win.arr_inj c (V0 m c) (fun w => (dats m 0 c).arrAt w (cfgs 0).N) 6).trans (final6 m c)
  have h7 : Pipeline.withArrays (cfgs 0).spec c (V0 m c) (fun w => (dats m 0 c).arrAt w (cfgs 0).N) (Proc.devRef .tc main_v7_1) = G7 m c :=
    (Pipeline.withArrays_arr spec0 launch0.win.arr_inj c (V0 m c) (fun w => (dats m 0 c).arrAt w (cfgs 0).N) 7).trans (final7 m c)
  have h8 : Pipeline.withArrays (cfgs 0).spec c (V0 m c) (fun w => (dats m 0 c).arrAt w (cfgs 0).N) (Proc.devRef .tc main_v7_2) = G8 m c :=
    (Pipeline.withArrays_arr spec0 launch0.win.arr_inj c (V0 m c) (fun w => (dats m 0 c).arrAt w (cfgs 0).N) 8).trans (final8 m c)
  have ha6 : Pipeline.withArrays (cfgs 0).spec c (V0 m c) (fun w => (dats m 0 c).arrAt w (cfgs 0).N) (Proc.devRef .tc main_arg6) = m ((c.tc : Thread nD τ).loc main_arg6) :=
    (Pipeline.withArrays_of_ne _ c (V0 m c) _ main_arg6 (by exact (by decide : ∀ w, Pipeline.arrRef spec0 w ≠ main_arg6))).trans (V_main_arg6 m c)
  have ha7 : Pipeline.withArrays (cfgs 0).spec c (V0 m c) (fun w => (dats m 0 c).arrAt w (cfgs 0).N) (Proc.devRef .tc main_arg7) = m ((c.tc : Thread nD τ).loc main_arg7) :=
    (Pipeline.withArrays_of_ne _ c (V0 m c) _ main_arg7 (by exact (by decide : ∀ w, Pipeline.arrRef spec0 w ≠ main_arg7))).trans (V_main_arg7 m c)
  have ha8 : Pipeline.withArrays (cfgs 0).spec c (V0 m c) (fun w => (dats m 0 c).arrAt w (cfgs 0).N) (Proc.devRef .tc main_arg8) = m ((c.tc : Thread nD τ).loc main_arg8) :=
    (Pipeline.withArrays_of_ne _ c (V0 m c) _ main_arg8 (by exact (by decide : ∀ w, Pipeline.arrRef spec0 w ≠ main_arg8))).trans (V_main_arg8 m c)
  have ha9 : Pipeline.withArrays (cfgs 0).spec c (V0 m c) (fun w => (dats m 0 c).arrAt w (cfgs 0).N) (Proc.devRef .tc main_arg9) = m ((c.tc : Thread nD τ).loc main_arg9) :=
    (Pipeline.withArrays_of_ne _ c (V0 m c) _ main_arg9 (by exact (by decide : ∀ w, Pipeline.arrRef spec0 w ≠ main_arg9))).trans (V_main_arg9 m c)
  have ha11 : Pipeline.withArrays (cfgs 0).spec c (V0 m c) (fun w => (dats m 0 c).arrAt w (cfgs 0).N) (Proc.devRef .tc main_arg11) = m ((c.tc : Thread nD τ).loc main_arg11) :=
    (Pipeline.withArrays_of_ne _ c (V0 m c) _ main_arg11 (by exact (by decide : ∀ w, Pipeline.arrRef spec0 w ≠ main_arg11))).trans (V_main_arg11 m c)
  unfold Pipeline.afterTail₀
  refine (tailB_flat _).trans ?_
  rw [h6, h7, h8, ha6, ha7, ha8, ha9, ha11, kpos_eq, kneg_eq]

/-- The run: every weakly fair execution ends with the two results at those values and the arguments unchanged. -/
theorem run : θ_run defs (onTc (τ := τ) (main (F := Ideal))) ⟨m, fun _ => 0, ρ⟩ (fun r => ∀ c : Dev nD,
      r.2.mem ((c.tc : Thread nD τ).loc main_v51) = Cert.Pool.headW (Cert.Pool.rPos (aY m c) (aH m c)) (Cert.Pool.rNegSub (aY m c) (aH m c)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v54) = Cert.Pool.headB (Cert.Pool.rPos (aY m c) (aH m c)) (Cert.Pool.rNegSub (aY m c) (aH m c)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_v51 (Pipeline.mem_restRefs_of main_v51 (by decide) (by decide))).trans (tail51 m c),
      ((h c).2 main_v54 (Pipeline.mem_restRefs_of main_v54 (by decide) (by decide))).trans (tail54 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩) (run_main m ρ)

end Cert.KernelIdeal.Pool

end
-- ==== Proof.RefSide.lean ====
/-
  The reference program, read against the specification.

  Its hidden features are `hid`; its first pool is `rPos` of them and its second pool is `rNegDirect` of them
  (it forms the complementary weights `1 − y` and pools with them directly); and each of its two results is the
  shared last layers (`headW`, `headB`) applied to these two pools.  Every step is a reading of one generated
  stage at an index: a matrix product as the sum over the contracted coordinate, a column sum as zero plus the sum
  over the rows, a broadcast or a transpose as a change of index.  No algebraic law is used here.
-/
import proofs.«173076_j45148696215988_2_alg».proof.Proof.Tail
import proofs.«173076_j45148696215988_2_alg».proof.Proof.Spec
import proofs.«173076_j45148696215988_2_alg».proof.Proof.Gen.ReferenceIdeal.Read

noncomputable section

namespace Cert.Pool.Ref

open Cert.ReferenceIdeal Cert.ReferenceIdeal.Gen Idealize.ShloMosaic Idealize.ShloMosaic.ValueIdx
open Idealize.ShloMosaic.TcCoe Idealize.SL.Sem

/-- The first layer of the reference, read at row `s` and feature `k`. -/
theorem hid1_eq (x0 : (⟨S65536x768, .f32⟩ : BufTy).Contents (Elt Ideal)) (x2 : (⟨S256x768, .f32⟩ : BufTy).Contents (Elt Ideal)) (x3 : (⟨S256, .f32⟩ : BufTy).Contents (Elt Ideal))
    (s : Fin 65536) (k : Fin 256) :
    Read.val_main_v5 (F := Ideal) x0 x2 x3 (ix2 s k) = Cert.Pool.hid1 x0 x2 x3 s k := by
  have e1 : ∀ e : Fin 768, Read.lidx_main_v1 (ix2 s k) e = ix2 s e := fun e =>
    funext fun a => Fin.ext (by match a with | ⟨0, _⟩ => rfl | ⟨1, _⟩ => rfl)
  have e2 : ∀ e : Fin 768, Read.idx_main_v0 (Read.ridx_main_v1 (ix2 s k) e) = ix2 k e := fun e =>
    funext fun a => Fin.ext (by match a with | ⟨0, _⟩ => rfl | ⟨1, _⟩ => rfl)
  have e3 : Read.idx_main_v2 (Read.idx_main_v3 (ix2 s k)) = ix1 k :=
    funext fun a => Fin.ext (by match a with | ⟨0, _⟩ => rfl)
  rw [Read.val_main_v5_apply, Read.val_main_v4_apply, Read.val_main_v1_apply, Read.val_main_v3_apply,
    Read.val_main_v2_apply, Read.val_main_call0_v0_apply, Read.val_main_call0_cst_apply]
  simp only [Read.val_main_v0_apply, e1, e2, e3, Ideal.maximumf_def, Ideal.addf_def, Ideal.ofBits_def,
    Ideal.ofBits_zero_f32]
  rfl

/-- The second layer of the reference, read at row `s` and feature `d`. -/
theorem hid_eq (x0 : (⟨S65536x768, .f32⟩ : BufTy).Contents (Elt Ideal)) (x2 : (⟨S256x768, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) (s : Fin 65536) (d : Fin 256) :
    Read.val_main_v11 (F := Ideal) x0 x2 x3 x4 x5 (ix2 s d) = Cert.Pool.hid x0 x2 x3 x4 x5 s d := by
  have e1 : ∀ k : Fin 256, Read.lidx_main_v7 (ix2 s d) k = ix2 s k := fun k =>
    funext fun a => Fin.ext (by match a with | ⟨0, _⟩ => rfl | ⟨1, _⟩ => rfl)
  have e2 : ∀ k : Fin 256, Read.idx_main_v6 (Read.ridx_main_v7 (ix2 s d) k) = ix2 d k := fun k =>
    funext fun a => Fin.ext (by match a with | ⟨0, _⟩ => rfl | ⟨1, _⟩ => rfl)
  have e3 : Read.idx_main_v8 (Read.idx_main_v9 (ix2 s d)) = ix1 d :=
    funext fun a => Fin.ext (by match a with | ⟨0, _⟩ => rfl)
  rw [Read.val_main_v11_apply, Read.val_main_v10_apply, Read.val_main_v7_apply, Read.val_main_v9_apply,
    Read.val_main_v8_apply, Read.val_main_call1_v0_apply, Read.val_main_call1_cst_apply]
  simp only [Read.val_main_v6_apply, e1, e2, e3, hid1_eq, Ideal.maximumf_def, Ideal.addf_def, Ideal.ofBits_def,
    Ideal.ofBits_zero_f32]
  rfl

/-- The reference's first pool is the normalised pool with the weights `y`. -/
theorem rpos_eq (x0 : (⟨S65536x768, .f32⟩ : BufTy).Contents (Elt Ideal)) (x1 : (⟨S65536x64, .f32⟩ : BufTy).Contents (Elt Ideal)) (x2 : (⟨S256x768, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) :
    Read.val_main_v24 (F := Ideal) x0 x1 x2 x3 x4 x5 = Cert.Pool.rPos x1 (Cert.Pool.hid x0 x2 x3 x4 x5) := by
  funext i
  obtain ⟨c, d, rfl⟩ : ∃ (c : Fin 64) (d : Fin 256), i = ix2 c d := ⟨i 0, i 1, eq_ix2 i⟩
  have e1 : ∀ k : Fin 65536, Read.idx_main_v20 (Read.lidx_main_v21 (ix2 c d) k) = ix2 k c := fun k =>
    funext fun a => Fin.ext (by match a with | ⟨0, _⟩ => rfl | ⟨1, _⟩ => rfl)
  have e2 : ∀ k : Fin 65536, Read.ridx_main_v21 (ix2 c d) k = ix2 k d := fun k =>
    funext fun a => Fin.ext (by match a with | ⟨0, _⟩ => rfl | ⟨1, _⟩ => rfl)
  have e3 : ∀ k : Fin 65536,
      Read.idx_main_v14 (Read.idx_main_v22 (Read.idx_main_v23 (ix2 c d))) k = ix2 k c := fun k =>
    funext fun a => Fin.ext (by match a with | ⟨0, _⟩ => rfl | ⟨1, _⟩ => rfl)
  rw [Read.val_main_v24_apply, Read.val_main_v21_apply, Read.val_main_v23_apply, Read.val_main_v22_apply,
    Read.val_main_v16_apply, Read.val_main_v14_apply, Read.val_main_v15_apply, Read.val_main_cst_0_apply,
    Read.val_main_cst_1_apply]
  simp only [Read.val_main_v20_apply, e1, e2, e3, hid_eq, Ideal.hostDivf_def, Ideal.maximumf_def, Ideal.ofBits_def,
    Ideal.ofBits_zero_f32, zero_add]
  rfl

/-- The reference's second pool is the normalised pool with the complementary weights `1 − y`, formed directly. -/
theorem rneg_eq (x0 : (⟨S65536x768, .f32⟩ : BufTy).Contents (Elt Ideal)) (x1 : (⟨S65536x64, .f32⟩ : BufTy).Contents (Elt Ideal)) (x2 : (⟨S256x768, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) :
    Read.val_main_v29 (F := Ideal) x0 x1 x2 x3 x4 x5 = Cert.Pool.rNegDirect x1 (Cert.Pool.hid x0 x2 x3 x4 x5) := by
  funext i
  obtain ⟨c, d, rfl⟩ : ∃ (c : Fin 64) (d : Fin 256), i = ix2 c d := ⟨i 0, i 1, eq_ix2 i⟩
  have e1 : ∀ k : Fin 65536, Read.idx_main_v25 (Read.lidx_main_v26 (ix2 c d) k) = ix2 k c := fun k =>
    funext fun a => Fin.ext (by match a with | ⟨0, _⟩ => rfl | ⟨1, _⟩ => rfl)
  have e2 : ∀ k : Fin 65536, Read.ridx_main_v26 (ix2 c d) k = ix2 k d := fun k =>
    funext fun a => Fin.ext (by match a with | ⟨0, _⟩ => rfl | ⟨1, _⟩ => rfl)
  have e3 : ∀ k : Fin 65536,
      Read.idx_main_v17 (Read.idx_main_v27 (Read.idx_main_v28 (ix2 c d))) k = ix2 k c := fun k =>
    funext fun a => Fin.ext (by match a with | ⟨0, _⟩ => rfl | ⟨1, _⟩ => rfl)
  rw [Read.val_main_v29_apply, Read.val_main_v26_apply, Read.val_main_v28_apply, Read.val_main_v27_apply,
    Read.val_main_v19_apply, Read.val_main_v17_apply, Read.val_main_v18_apply, Read.val_main_cst_2_apply,
    Read.val_main_cst_3_apply]
  simp only [Read.val_main_v25_apply, Read.val_main_v13_apply, Read.val_main_v12_apply, Read.val_main_cst_apply,
    e1, e2, e3, hid_eq, Ideal.hostDivf_def, Ideal.maximumf_def, Ideal.subf_def, Ideal.ofBits_def,
    Ideal.ofBits_zero_f32, zero_add]
  rfl

/-- The reference's first result is the shared last layers applied to its two pools. -/
theorem out0_eq (m : (ℓ : Loc nD τ sig) → Buf (Elt Ideal) ℓ) (c : Dev nD) :
    Cert.ReferenceIdeal.Value.res_main_v55 (F := Ideal) m c
      = Cert.Pool.headW
          (Read.val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
          (Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.Value.res_main_v55 Cert.Pool.headW
  rfl

/-- The reference's second result is the shared last layers applied to its two pools. -/
theorem out1_eq (m : (ℓ : Loc nD τ sig) → Buf (Elt Ideal) ℓ) (c : Dev nD) :
    Cert.ReferenceIdeal.Value.res_main_v58 (F := Ideal) m c
      = Cert.Pool.headB
          (Read.val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
          (Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) := by
  unfold Cert.ReferenceIdeal.Value.res_main_v58 Cert.Pool.headB
  rfl

end Cert.Pool.Ref

end
-- ==== Proof.Laws.lean ====
/-
  The algebra of the two pools, over the extended reals.

  The two f32 words are the reals `1` and `65536`.  Real numbers are closed under the sums, products
  and maxima that build the hidden features, so every feature is real when every input is.  With real
  weights and real features, `Σ_s (1 − y_s)·H_s = Σ_s H_s − Σ_s y_s·H_s` and
  `Σ_s (1 − y_s) = 65536 − Σ_s y_s` (a sum of 65536 ones), so the complementary pool formed directly
  and the one formed by subtraction have the same numerator and the same denominator.
-/
import proofs.«173076_j45148696215988_2_alg».proof.Proof.Spec

noncomputable section

namespace Cert.Pool

open Idealize.ShloMosaic Idealize.ShloMosaic.ValueIdx

/-! ### The two words -/

theorem oneW_eq : oneW = 1 := by
  show Ideal.ofBits .f32 0x3F800000#32 = 1
  simp [Ideal.ofBits, Ideal.ieee, -EReal.coe_mul]; norm_num

theorem rowsW_eq : rowsW = ((65536 : ℝ) : EReal) := by
  show Ideal.ofBits .f32 0x47800000#32 = ((65536 : ℝ) : EReal)
  simp [Ideal.ofBits, Ideal.ieee, -EReal.coe_mul]; norm_num

/-! ### Real numbers inside the extended reals -/

/-- The coercion commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with the maximum. -/
theorem coe_max (a b : ℝ) : ((max a b : ℝ) : EReal) = max (a : EReal) (b : EReal) :=
  Monotone.map_max EReal.coe_strictMono.monotone

/-- An extended real that is a real number. -/
def IsReal (x : EReal) : Prop := ∃ r : ℝ, x = (r : EReal)

theorem IsReal.zero : IsReal 0 := ⟨0, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  obtain ⟨x, rfl⟩ := ha; obtain ⟨y, rfl⟩ := hb; exact ⟨Max.max x y, (coe_max x y).symm⟩

theorem IsReal.sum {ι : Type} (s : Finset ι) {f : ι → EReal} (h : ∀ i, IsReal (f i)) :
    IsReal (∑ i ∈ s, f i) := by
  choose g hg using h
  exact ⟨∑ i ∈ s, g i, by rw [coe_sum]; exact Finset.sum_congr rfl (fun i _ => hg i)⟩

/-! ### The hidden features are real -/

theorem hid1_real (X : Arr ⟨2, ![65536, 768]⟩) (w1 : Arr ⟨2, ![256, 768]⟩) (b1 : Arr ⟨1, ![256]⟩)
    (hX : ∀ i, ∃ r : ℝ, X i = (r : EReal)) (hw1 : ∀ i, ∃ r : ℝ, w1 i = (r : EReal))
    (hb1 : ∀ i, ∃ r : ℝ, b1 i = (r : EReal)) (s : Fin 65536) (k : Fin 256) :
    IsReal (hid1 X w1 b1 s k) := by
  unfold hid1
  exact IsReal.max (IsReal.add (IsReal.sum _ (fun e => IsReal.mul (hX _) (hw1 _))) (hb1 _)) IsReal.zero

theorem hid_real (X : Arr ⟨2, ![65536, 768]⟩) (w1 : Arr ⟨2, ![256, 768]⟩) (b1 : Arr ⟨1, ![256]⟩)
    (w2 : Arr ⟨2, ![256, 256]⟩) (b2 : Arr ⟨1, ![256]⟩)
    (hX : ∀ i, ∃ r : ℝ, X i = (r : EReal)) (hw1 : ∀ i, ∃ r : ℝ, w1 i = (r : EReal))
    (hb1 : ∀ i, ∃ r : ℝ, b1 i = (r : EReal)) (hw2 : ∀ i, ∃ r : ℝ, w2 i = (r : EReal))
    (hb2 : ∀ i, ∃ r : ℝ, b2 i = (r : EReal)) :
    ∀ s d, ∃ r : ℝ, hid X w1 b1 w2 b2 s d = (r : EReal) := by
  intro s d
  unfold hid
  exact IsReal.max (IsReal.add (IsReal.sum _ (fun k => IsReal.mul (hid1_real X w1 b1 hX hw1 hb1 s k) (hw2 _)))
    (hb2 _)) IsReal.zero

/-! ### The two forms of the complementary pool -/

/-- `Σ_s (1 − a_s)·b_s = Σ_s b_s − Σ_s a_s·b_s` for real `a`, `b`. -/
theorem sum_compl_mul {ι : Type} [Fintype ι] (a b : ι → ℝ) :
    ∑ s : ι, ((1 : EReal) - (a s : EReal)) * (b s : EReal)
      = (∑ s : ι, (b s : EReal)) - ∑ s : ι, (a s : EReal) * (b s : EReal) := by
  have e : ∀ s : ι, ((1 : EReal) - (a s : EReal)) * (b s : EReal) = (((1 - a s) * b s : ℝ) : EReal) := by
    intro s; rw [EReal.coe_mul, EReal.coe_sub, EReal.coe_one]
  have e' : ∀ s : ι, (a s : EReal) * (b s : EReal) = ((a s * b s : ℝ) : EReal) := by
    intro s; rw [EReal.coe_mul]
  simp only [e, e']
  rw [← coe_sum, ← coe_sum, ← coe_sum, ← EReal.coe_sub]
  congr 1
  simp only [sub_mul, one_mul, Finset.sum_sub_distrib]

/-- `Σ_s (1 − a_s) = N − Σ_s a_s` for real `a` over an index type with `N` elements. -/
theorem sum_compl {ι : Type} [Fintype ι] (a : ι → ℝ) (N : ℝ) (hN : (Fintype.card ι : ℝ) = N) :
    ∑ s : ι, ((1 : EReal) - (a s : EReal)) = (N : EReal) - ∑ s : ι, (a s : EReal) := by
  have e : ∀ s : ι, ((1 : EReal) - (a s : EReal)) = (((1 - a s) : ℝ) : EReal) := by
    intro s; rw [EReal.coe_sub, EReal.coe_one]
  simp only [e]
  rw [← coe_sum, ← coe_sum, ← EReal.coe_sub]
  congr 1
  rw [Finset.sum_sub_distrib, Finset.sum_const, Finset.card_univ, nsmul_eq_mul, mul_one, hN]

/-- The two forms agree at each label column `c` and feature `d`. -/
theorem rNeg_point (y : Arr ⟨2, ![65536, 64]⟩) (H : Fin 65536 → Fin 256 → EReal)
    (hy : ∀ i, ∃ r : ℝ, y i = (r : EReal)) (hH : ∀ s d, ∃ r : ℝ, H s d = (r : EReal))
    (c : Fin 64) (d : Fin 256) :
    Ideal.div (∑ s : Fin 65536, (oneW - y (ix2 s c)) * H s d) (max (∑ s : Fin 65536, (oneW - y (ix2 s c))) epsW)
      = Ideal.div (colSum H d - poolPos y H c d) (max (rowsW - mass y c) epsW) := by
  choose yr hyr using hy
  choose Hr hHr using hH
  unfold colSum poolPos mass
  rw [oneW_eq, rowsW_eq]
  simp only [hyr, hHr]
  rw [sum_compl_mul (fun s => yr (ix2 s c)) (fun s => Hr s d),
    sum_compl (fun s => yr (ix2 s c)) 65536 (by simp)]

theorem rNeg_eq (y : Arr ⟨2, ![65536, 64]⟩) (H : Fin 65536 → Fin 256 → EReal)
    (hy : ∀ i, ∃ r : ℝ, y i = (r : EReal)) (hH : ∀ s d, ∃ r : ℝ, H s d = (r : EReal)) :
    rNegDirect y H = rNegSub y H := by
  funext i
  exact rNeg_point y H hy hH (i 0) (i 1)

end Cert.Pool

end
-- ==== Proof.Finite.lean ====
/-
  Finiteness of the inputs, read back from the precondition.

  The precondition is the conjunction, over the twelve argument arrays, of "every entry `x` has
  `|x| < +∞`", where `|x| = max x (−x)` and `+∞` is the f32 word `0x7F800000`.  An extended real
  with `max x (−x) < ⊤` is neither `⊤` nor `⊥`, hence a real number.  So every entry of every
  argument array is real; the first six arrays are the ones the pooled features are built from.
-/
import proofs.«173076_j45148696215988_2_alg».proof.Defs
import Idealize.ShloMosaic.Lib.ReduceAll
import Idealize.ShloMosaic.Lib.ValueIdx

noncomputable section

namespace Cert.Pool.Fin

open Idealize.ShloMosaic Idealize.SL.Sem Cert.Pre_finite_inputs

/-- The rank-0 shape has one index. -/
instance : Subsingleton S_.Idx := ⟨fun a b => funext fun d => d.elim0⟩

/-- The word `0x7F800000` is `+∞`. -/
theorem inf_word : Ideal.ofBits .f32 0x7F800000#32 = ⊤ := by
  simp [Ideal.ofBits, Ideal.ieee]

/-- `|x| < +∞` makes `x` a real number. -/
theorem real_of_abs_lt (x : EReal)
    (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

/-- One array: if the reduce-and over all entries of `|x| < +∞` is 1, every entry is real. -/
theorem real_of_all {s : Shape} {axes : List (Fin s.rank)} (x : FVec Ideal s .f32)
    (bc : S_.BroadcastsInDim s (![] : Fin 0 → Fin s.rank)) (h : s.ReducesTo axes S_) (hu : 0 < S_.numel)
    (e : Host.reduce IntOp.andi
          (cmpf .olt (Host.absf x) (broadcastInDim s ![] bc (constant S_ .f32 0x7F800000#32)))
          (constantI S_ 1 1#1) h hu ValueIdx.ix0 = 1#1) :
    ∀ i, ∃ r : ℝ, x i = (r : EReal) := fun i =>
  real_of_abs_lt (x i) (Host.reduce_andi_all _ _ h hu ValueIdx.ix0 e i)

/-- A conjunction of two bits that is 1 has both bits 1. -/
theorem split {A B : IVec S_ 1} (e : andi A B ValueIdx.ix0 = 1#1) :
    A ValueIdx.ix0 = 1#1 ∧ B ValueIdx.ix0 = 1#1 := IntOp.andi_eq_one.1 e

/-- The precondition over twelve arrays makes every entry of the first six real. -/
theorem real_of_fn [Facts] (a0 : FVec Ideal S65536x768 .f32) (a1 : FVec Ideal S65536x64 .f32)
    (a2 : FVec Ideal S256x768 .f32) (a3 : FVec Ideal S256 .f32) (a4 : FVec Ideal S256x256 .f32)
    (a5 : FVec Ideal S256 .f32) (a6 : FVec Ideal S256x512 .f32) (a7 : FVec Ideal S256 .f32)
    (a8 : FVec Ideal S1537x256 .f32) (a9 : FVec Ideal S1537 .f32) (a10 : FVec Ideal S768 .f32)
    (a11 : FVec Ideal S1 .f32)
    (h : fn (F := Ideal) a0 a1 a2 a3 a4 a5 a6 a7 a8 a9 a10 a11 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) := by
  have e := congrFun h ValueIdx.ix0
  unfold fn fn_part1 fn_part2 fn_part3 at e
  dsimp only at e
  obtain ⟨e, -⟩ := split e
  obtain ⟨e, -⟩ := split e
  obtain ⟨e, -⟩ := split e
  obtain ⟨e, -⟩ := split e
  obtain ⟨e, -⟩ := split e
  obtain ⟨e, -⟩ := split e
  obtain ⟨e, e5⟩ := split e
  obtain ⟨e, e4⟩ := split e
  obtain ⟨e, e3⟩ := split e
  obtain ⟨e, e2⟩ := split e
  obtain ⟨e0, e1⟩ := split e
  exact ⟨real_of_all a0 _ _ _ e0, real_of_all a1 _ _ _ e1, real_of_all a2 _ _ _ e2,
    real_of_all a3 _ _ _ e3, real_of_all a4 _ _ _ e4, real_of_all a5 _ _ _ e5⟩

/-- The launch memory of the idealized kernel: under the precondition, every entry of the first six
    argument arrays is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal)) ∧
    (∀ i, ∃ r : ℝ, m ((c.tc : Thread Cert.KernelIdeal.nD Cert.KernelIdeal.τ).loc Cert.KernelIdeal.main_arg1) i = (r : EReal)) ∧
    (∀ i, ∃ r : ℝ, m ((c.tc : Thread Cert.KernelIdeal.nD Cert.KernelIdeal.τ).loc Cert.KernelIdeal.main_arg2) i = (r : EReal)) ∧
    (∀ i, ∃ r : ℝ, m ((c.tc : Thread Cert.KernelIdeal.nD Cert.KernelIdeal.τ).loc Cert.KernelIdeal.main_arg3) i = (r : EReal)) ∧
    (∀ i, ∃ r : ℝ, m ((c.tc : Thread Cert.KernelIdeal.nD Cert.KernelIdeal.τ).loc Cert.KernelIdeal.main_arg4) i = (r : EReal)) ∧
    (∀ i, ∃ r : ℝ, m ((c.tc : Thread Cert.KernelIdeal.nD Cert.KernelIdeal.τ).loc Cert.KernelIdeal.main_arg5) i = (r : EReal)) :=
  real_of_fn _ _ _ _ _ _ _ _ _ _ _ _ (h c)

end Cert.Pool.Fin

end
-- ==== Proof.lean ====
/-
  The certificate: a fused pooling kernel against its plain reference.

  Both programs map each of the 65536 rows of X through a two-layer perceptron with rectifiers to 256 hidden
  features H, pool the features over the rows once with the weights y[·,c] and once with the complementary weights
  1 − y[·,c] (for each of the 64 label columns c), divide each pool by its clamped total weight, and run the same
  small head on the concatenated pools.

  The reference forms both pools directly.  The kernel walks the rows in 2 halves of 16 tiles of 2048 rows,
  accumulating per half the pool Σ y·H, the column sums Σ H and the total weights Σ y; afterwards it adds the two
  halves and obtains the complementary pool by subtraction, Σ (1 − y)·H = Σ H − Σ y·H and Σ (1 − y) = 65536 − Σ y.
  At the ideal instance a change of float format is the identity and a sum may be regrouped freely, so the
  kernel's accumulated sums are the sums over all rows; the two subtraction identities hold because every input is
  finite, hence every y and every H is a real number.  The head is one function applied to equal arguments.
-/
import proofs.«173076_j45148696215988_2_alg».proof.Defs
import proofs.«173076_j45148696215988_2_alg».proof.Proof.Gen.Kernel
import proofs.«173076_j45148696215988_2_alg».proof.Proof.Gen.Kernel.Skeleton
import proofs.«173076_j45148696215988_2_alg».proof.Proof.Gen.Kernel.Launch
import proofs.«173076_j45148696215988_2_alg».proof.Proof.Gen.Kernel.Points
import proofs.«173076_j45148696215988_2_alg».proof.Proof.Gen.Kernel.Frame
import proofs.«173076_j45148696215988_2_alg».proof.Proof.Gen.KernelIdeal
import proofs.«173076_j45148696215988_2_alg».proof.Proof.Gen.KernelIdeal.Skeleton
import proofs.«173076_j45148696215988_2_alg».proof.Proof.Gen.KernelIdeal.Launch
import proofs.«173076_j45148696215988_2_alg».proof.Proof.Gen.KernelIdeal.Points
import proofs.«173076_j45148696215988_2_alg».proof.Proof.Gen.KernelIdeal.Frame
import proofs.«173076_j45148696215988_2_alg».proof.Proof.Gen.ReferenceIdeal
import proofs.«173076_j45148696215988_2_alg».proof.Proof.Gen.ReferenceIdeal.Run
import proofs.«173076_j45148696215988_2_alg».proof.Proof.Gen.ReferenceIdeal.Read
import proofs.«173076_j45148696215988_2_alg».proof.Proof.Gen.Pre_finite_inputs
import proofs.«173076_j45148696215988_2_alg».proof.Proof.KRun
import proofs.«173076_j45148696215988_2_alg».proof.Proof.RefSide
import proofs.«173076_j45148696215988_2_alg».proof.Proof.Laws
import proofs.«173076_j45148696215988_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- With finite inputs the complementary pool formed by subtraction is the one formed directly. -/
theorem neg_pools (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Pool.rNegDirect (Cert.KernelIdeal.Pool.aY m c) (Cert.KernelIdeal.Pool.aH m c)
      = Cert.Pool.rNegSub (Cert.KernelIdeal.Pool.aY m c) (Cert.KernelIdeal.Pool.aH m c) := by
  obtain ⟨h0, h1, h2, h3, h4, h5⟩ := Cert.Pool.Fin.real_of_pre m hpre c
  exact Cert.Pool.rNeg_eq _ _ h1 (Cert.Pool.hid_real _ _ _ _ _ h0 h2 h3 h4 h5)

/-- Both idealized programs end with the shared head applied to the same two normalised pools. -/
theorem algebraic : Cert.algebraic_KernelIdeal_ReferenceIdeal := by
  intro m ρ m' ρ' hpre hagree
  refine ⟨_, _, Cert.KernelIdeal.Pool.run m ρ, ?_⟩
  refine (θ_run Cert.ReferenceIdeal.defs _ _).mono (fun _ h c => ⟨?_, ?_, (h c).2.2⟩)
    (Cert.ReferenceIdeal.Value.run (F := Ideal) m' ρ')
  · refine (h c).1.trans ?_
    rw [Cert.Pool.Ref.out0_eq, Cert.Pool.Ref.rpos_eq, Cert.Pool.Ref.rneg_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1]
    exact congrArg (fun rn => Cert.Pool.headW _ rn _ _ _ _ _) (neg_pools m hpre c)
  · refine (h c).2.1.trans ?_
    rw [Cert.Pool.Ref.out1_eq, Cert.Pool.Ref.rpos_eq, Cert.Pool.Ref.rneg_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.2]
    exact congrArg (fun rn => Cert.Pool.headB _ rn _ _ _ _ _) (neg_pools m hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
